-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x40 .f32) (main_arg8 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x40 .f32 := Host.absf main_arg7
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S_ : Shape := ⟨0, ![]⟩
abbrev S50000 : Shape := ⟨1, ![50000]⟩
abbrev S850000 : Shape := ⟨1, ![850000]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 148
  | .vmem => 32
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S128, .f32⟩
  | 7 => ⟨S128x40, .f32⟩
  | 8 => ⟨S40, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S50000, .i32⟩
  | 16 => ⟨S850000, .i32⟩
  | 17 => ⟨S850000, .i32⟩
  | 18 => ⟨S_, .f32⟩
  | 19 => ⟨S50000, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000, .i32⟩
  | 54 => ⟨S850000, .i32⟩
  | 55 => ⟨S850000, .i32⟩
  | 56 => ⟨S_, .f32⟩
  | 57 => ⟨S50000, .f32⟩
  | 58 => ⟨S850000, .f32⟩
  | 59 => ⟨S_, .f32⟩
  | 60 => ⟨S50000, .f32⟩
  | 61 => ⟨S850000x1, .i32⟩
  | 62 => ⟨S50000, .f32⟩
  | 63 => ⟨S_, .f32⟩
  | 64 => ⟨S50000, .f32⟩
  | 65 => ⟨S50000, .i1⟩
  | 66 => ⟨S50000, .f32⟩
  | 67 => ⟨S_, .f32⟩
  | 68 => ⟨S_, .f32⟩
  | 69 => ⟨S50000, .f32⟩
  | 70 => ⟨S50000, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000, .f32⟩
  | 80 => ⟨S850000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S850000, .f32⟩
  | 91 => ⟨S50000x128, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x128, .f32⟩
  | 101 => ⟨S850000x1, .f32⟩
  | 102 => ⟨S850000x128, .f32⟩
  | 103 => ⟨S850000x128, .f32⟩
  | 104 => ⟨S_, .f32⟩
  | 105 => ⟨S50000x128, .f32⟩
  | 106 => ⟨S850000x1, .i32⟩
  | 107 => ⟨S50000x128, .f32⟩
  | 108 => ⟨S1x128, .f32⟩
  | 109 => ⟨S50000x128, .f32⟩
  | 110 => ⟨S50000x128, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x1, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x40, .f32⟩
  | 2 => ⟨S_, .i32⟩
  | 3 => ⟨S850000, .i32⟩
  | 4 => ⟨S850000, .i1⟩
  | 5 => ⟨S_, .i32⟩
  | 6 => ⟨S850000, .i32⟩
  | 7 => ⟨S850000, .i32⟩
  | 8 => ⟨S850000, .i32⟩
  | 9 => ⟨S850000x1, .i32⟩
  | 10 => ⟨S850000x40, .f32⟩
  | 11 => ⟨S850000x1, .f32⟩
  | 12 => ⟨S850000x40, .f32⟩
  | 13 => ⟨S850000x40, .f32⟩
  | 14 => ⟨S_, .f32⟩
  | 15 => ⟨S50000x40, .f32⟩
  | 16 => ⟨S850000x1, .i32⟩
  | 17 => ⟨S50000x40, .f32⟩
  | 18 => ⟨S1x40, .f32⟩
  | 19 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x40, .f32⟩
  | .local _ .vmem, ⟨25, _⟩ => ⟨S5000x40, .f32⟩
  | .local _ .vmem, ⟨26, _⟩ => ⟨S5000x40, .f32⟩
  | .local _ .vmem, ⟨27, _⟩ => ⟨S5000x40, .f32⟩
  | .local _ .vmem, ⟨28, _⟩ => ⟨S5000x40, .f32⟩
  | .local _ .vmem, ⟨29, _⟩ => ⟨S1x40, .f32⟩
  | .local _ .vmem, ⟨30, _⟩ => ⟨S5000x40, .f32⟩
  | .local _ .vmem, ⟨31, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_call1_v0 : Ref sig .tc := ⟨.hbm, 68, rfl⟩
abbrev main_call1_v1 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_13 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_c_16 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_17 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_18 : Ref sig .tc := ⟨.hbm, 111, rfl⟩
abbrev main_v78 : Ref sig .tc := ⟨.hbm, 112, rfl⟩
abbrev main_v79 : Ref sig .tc := ⟨.hbm, 113, rfl⟩
abbrev main_c_19 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_20 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_c_21 : Ref sig .tc := ⟨.hbm, 130, rfl⟩
abbrev main_v94 : Ref sig .tc := ⟨.hbm, 131, rfl⟩
abbrev main_v95 : Ref sig .tc := ⟨.hbm, 132, rfl⟩
abbrev main_c_22 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_23 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S50000x40.size a
  hwx4_2 : ∀ i : grid4.Coords, EltTy.bits .f32 = 32 ∨ (Rect.block (s := S50000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S50000x40.size a
  hwx5_0 : ∀ i : grid5.Coords, EltTy.bits .f32 = 32 ∨ (Rect.block (s := S50000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S50000x40.size a
  hwx5_2 : ∀ i : grid5.Coords, EltTy.bits .f32 = 32 ∨ (Rect.block (s := S50000x40) S5000x40.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v61) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v74) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v75) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v76) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v76) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v91) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v92) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v93) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v106) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v107) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v108) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S_ : Shape := ⟨0, ![]⟩
abbrev S50000 : Shape := ⟨1, ![50000]⟩
abbrev S850000 : Shape := ⟨1, ![850000]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 214
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S128, .f32⟩
  | 7 => ⟨S128x40, .f32⟩
  | 8 => ⟨S40, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S50000, .i32⟩
  | 16 => ⟨S850000, .i32⟩
  | 17 => ⟨S850000, .i32⟩
  | 18 => ⟨S_, .f32⟩
  | 19 => ⟨S50000, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000, .i32⟩
  | 77 => ⟨S850000, .i32⟩
  | 78 => ⟨S850000, .i32⟩
  | 79 => ⟨S_, .f32⟩
  | 80 => ⟨S50000, .f32⟩
  | 81 => ⟨S850000, .f32⟩
  | 82 => ⟨S_, .f32⟩
  | 83 => ⟨S50000, .f32⟩
  | 84 => ⟨S850000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S50000x128, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x128, .f32⟩
  | 124 => ⟨S850000x1, .f32⟩
  | 125 => ⟨S850000x128, .f32⟩
  | 126 => ⟨S850000x128, .f32⟩
  | 127 => ⟨S_, .f32⟩
  | _ => ⟨S50000x128, .f32⟩

abbrev hbmTy0_1 (i : Nat) : BufTy := match i % 128 with
  | 0 => ⟨S50000x128, .f32⟩
  | 1 => ⟨S850000x1, .i32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S50000x128, .f32⟩
  | 13 => ⟨S50000, .i32⟩
  | 14 => ⟨S850000, .i32⟩
  | 15 => ⟨S850000, .i32⟩
  | 16 => ⟨S_, .f32⟩
  | 17 => ⟨S50000, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x40, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x40, .f32⟩
  | 61 => ⟨S850000x1, .f32⟩
  | 62 => ⟨S850000x40, .f32⟩
  | 63 => ⟨S850000x40, .f32⟩
  | 64 => ⟨S_, .f32⟩
  | 65 => ⟨S50000x40, .f32⟩
  | 66 => ⟨S850000x1, .i32⟩
  | 67 => ⟨S50000x40, .f32⟩
  | 68 => ⟨S1x40, .f32⟩
  | 69 => ⟨S50000x40, .f32⟩
  | 70 => ⟨S50000x40, .f32⟩
  | 71 => ⟨S_, .f32⟩
  | 72 => ⟨S50000, .f32⟩
  | 73 => ⟨S_, .f32⟩
  | 74 => ⟨S50000, .f32⟩
  | 75 => ⟨S50000, .f32⟩
  | 76 => ⟨S50000x1, .f32⟩
  | 77 => ⟨S50000x40, .f32⟩
  | 78 => ⟨S50000x40, .f32⟩
  | 79 => ⟨S50000x40, .f32⟩
  | 80 => ⟨S_, .f32⟩
  | 81 => ⟨S50000, .f32⟩
  | 82 => ⟨S50000x1, .f32⟩
  | 83 => ⟨S50000x1, .f32⟩
  | 84 => ⟨S50000x40, .f32⟩
  | 85 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_c_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_16 : Ref sig .tc := ⟨.hbm, 104, rfl⟩
abbrev main_v71 : Ref sig .tc := ⟨.hbm, 105, rfl⟩
abbrev main_v72 : Ref sig .tc := ⟨.hbm, 106, rfl⟩
abbrev main_c_17 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_18 : Ref sig .tc := ⟨.hbm, 115, rfl⟩
abbrev main_v80 : Ref sig .tc := ⟨.hbm, 116, rfl⟩
abbrev main_v81 : Ref sig .tc := ⟨.hbm, 117, rfl⟩
abbrev main_c_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_20 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_21 : Ref sig .tc := ⟨.hbm, 134, rfl⟩
abbrev main_v96 : Ref sig .tc := ⟨.hbm, 135, rfl⟩
abbrev main_v97 : Ref sig .tc := ⟨.hbm, 136, rfl⟩
abbrev main_cst_22 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_23 : Ref sig .tc := ⟨.hbm, 144, rfl⟩
abbrev main_v104 : Ref sig .tc := ⟨.hbm, 145, rfl⟩
abbrev main_v105 : Ref sig .tc := ⟨.hbm, 146, rfl⟩
abbrev main_cst_24 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_25 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_26 : Ref sig .tc := ⟨.hbm, 155, rfl⟩
abbrev main_call3_v0 : Ref sig .tc := ⟨.hbm, 156, rfl⟩
abbrev main_call3_v1 : Ref sig .tc := ⟨.hbm, 157, rfl⟩
abbrev main_v112 : Ref sig .tc := ⟨.hbm, 158, rfl⟩
abbrev main_c_27 : Ref sig .tc := ⟨.hbm, 159, rfl⟩
abbrev main_v113 : Ref sig .tc := ⟨.hbm, 160, rfl⟩
abbrev main_v114 : Ref sig .tc := ⟨.hbm, 161, rfl⟩
abbrev main_c_28 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c_29 : Ref sig .tc := ⟨.hbm, 169, rfl⟩
abbrev main_v121 : Ref sig .tc := ⟨.hbm, 170, rfl⟩
abbrev main_v122 : Ref sig .tc := ⟨.hbm, 171, rfl⟩
abbrev main_c_30 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_c_31 : Ref sig .tc := ⟨.hbm, 180, rfl⟩
abbrev main_v130 : Ref sig .tc := ⟨.hbm, 181, rfl⟩
abbrev main_v131 : Ref sig .tc := ⟨.hbm, 182, rfl⟩
abbrev main_c_32 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_33 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_call4_cst : Ref sig .tc := ⟨.hbm, 199, rfl⟩
abbrev main_call4_v0 : Ref sig .tc := ⟨.hbm, 200, rfl⟩
abbrev main_call4_cst_0 : Ref sig .tc := ⟨.hbm, 201, rfl⟩
abbrev main_call4_v1 : Ref sig .tc := ⟨.hbm, 202, rfl⟩
abbrev main_call4_v2 : Ref sig .tc := ⟨.hbm, 203, rfl⟩
abbrev main_call4_v3 : Ref sig .tc := ⟨.hbm, 204, rfl⟩
abbrev main_call4_v4 : Ref sig .tc := ⟨.hbm, 205, rfl⟩
abbrev main_call4_v5 : Ref sig .tc := ⟨.hbm, 206, rfl⟩
abbrev main_call4_v6 : Ref sig .tc := ⟨.hbm, 207, rfl⟩
abbrev main_call4_cst_1 : Ref sig .tc := ⟨.hbm, 208, rfl⟩
abbrev main_call4_v7 : Ref sig .tc := ⟨.hbm, 209, rfl⟩
abbrev main_call4_v8 : Ref sig .tc := ⟨.hbm, 210, rfl⟩
abbrev main_call4_v9 : Ref sig .tc := ⟨.hbm, 211, rfl⟩
abbrev main_call4_v10 : Ref sig .tc := ⟨.hbm, 212, rfl⟩
abbrev main_v146 : Ref sig .tc := ⟨.hbm, 213, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The idealized kernel's run with its result NAMED.

  @main is fourteen segments: stretches of host operations and six tiled regions. Every weakly fair execution
  terminates without a fault, and at the end every buffer that lives across segments holds the last of the
  boundary contents `W14`: the launch memory folded through each host stretch (its operations' results) and each
  region (its arrays at what the write-backs of its grid points leave). So the result buffer ends at
  `W14 … main_v108` — the sixth region's output array — and the nine argument arrays end as launched: no host
  operation and no region writes one.
-/
import proofs.«101195_j59442347377119_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary
    contents and the argument arrays as launched: the segments' launch, the final thread state ("every buffer that
    outlives a segment at `W14`") read against the final memory, the result at its own buffer and each argument walked
    back to the launch. -/
theorem run : θ_run defs (onTc (τ := τ) (main (F := F))) ⟨m, fun _ => 0, ρ⟩ (fun r => ∀ c : Dev nD,
      r.2.mem ((c.tc : Thread nD τ).loc main_v108) = W14 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v108 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.ValueRun

end
-- ==== Proof.KernelKeep.lean ====
/-
  Which buffers each stretch of host operations writes, and the consequence used throughout the value proof: a buffer
  that a stretch does not write, and that is none of a region's arrays, holds at the next boundary what it held at the
  previous one. Chained from the first region's entry (boundary 5) up to the last host stretch (boundary 12), and from the
  launch (boundary 0) up to the first region's entry.
-/
import proofs.«101195_j59442347377119_1_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## What each stretch writes -/

/-- The result buffers of the operations of stretch `hostOps0`, in order. -/
abbrev written0 : List (Ref sig .tc) := [main_v0, main_v1, main_v2, main_v3, main_cst, main_v4, main_v5, main_v6, main_v7, main_cst_0, main_v8, main_v9, main_cst_1, main_v10, main_v11, main_v12, main_cst_2, main_v13, main_v14, main_v15, main_cst_3]
theorem writes0 : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The result buffers of the operations of stretch `hostOps0_1`, in order. -/
abbrev written0_1 : List (Ref sig .tc) := [main_call0_v0, main_call0_v1, main_v16]
theorem writes0_1 : (hostOps0_1 : List (HloOp τ sig (Elt F))).Forall fun op => op.writes ⊆ (written0_1.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The result buffers of the operations of stretch `hostOps0_2`, in order. -/
abbrev written0_2 : List (Ref sig .tc) := [main_c, main_v17, main_v18, main_c_4, main_v19, main_v20, main_v21, main_v22, main_v23, main_v24, main_c_5, main_v25, main_v26, main_c_6, main_v27, main_v28, main_v29, main_v30, main_v31, main_v32, main_v33, main_v34, main_v35, main_cst_7, main_v36, main_v37, main_cst_8, main_v38, main_v39, main_v40, main_cst_9, main_v41, main_v42, main_v43, main_cst_10]
theorem writes0_2 : (hostOps0_2 : List (HloOp τ sig (Elt F))).Forall fun op => op.writes ⊆ (written0_2.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The result buffers of the operations of stretch `hostOps0_3`, in order. -/
abbrev written0_3 : List (Ref sig .tc) := [main_call1_v0, main_call1_v1, main_v44]
theorem writes0_3 : (hostOps0_3 : List (HloOp τ sig (Elt F))).Forall fun op => op.writes ⊆ (written0_3.map (Proc.devRef (τ := τ) .tc)).toFinset := by
  simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The result buffers of the operations of stretch `hostOps0_4`, in order. -/
abbrev written0_4 : List (Ref sig .tc) := [main_c_11, main_v45, main_v46, main_c_12, main_v47, main_v48, main_v49, main_v50, main_v51, main_v52, main_c_13, main_v53, main_v54, main_c_14, main_v55, main_v56, main_v57, main_v58, main_v59, main_v60]
theorem writes0_4 : (hostOps0_4 : List (HloOp τ sig (Elt F))).Forall fun op => op.writes ⊆ (written0_4.map (Proc.devRef (τ := τ) .tc)).toFinset := by
  simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The result buffers of the operations of stretch `hostOps1`, in order. -/
abbrev written1 : List (Ref sig .tc) := [main_c_15, main_v62, main_v63, main_c_16, main_v64, main_v65, main_v66, main_v67, main_v68, main_v69, main_v70, main_v71, main_cst_17, main_v72, main_v73, main_v74, main_v75]
theorem writes1 : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The result buffers of the operations of stretch `hostOps3`, in order. -/
abbrev written3 : List (Ref sig .tc) := [main_c_18, main_v78, main_v79, main_c_19, main_v80, main_v81, main_v82, main_v83, main_v84, main_v85, main_v86, main_v87, main_cst_20, main_v88, main_v89, main_v90, main_v91]
theorem writes3 : (hostOps3 : List (HloOp τ sig (Elt F))).Forall fun op => op.writes ⊆ (written3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The result buffers of the operations of stretch `hostOps5`, in order. -/
abbrev written5 : List (Ref sig .tc) := [main_c_21, main_v94, main_v95, main_c_22, main_v96, main_v97, main_v98, main_v99, main_v100, main_v101, main_v102, main_v103, main_cst_23, main_v104, main_v105, main_v106, main_v107]
theorem writes5 : (hostOps5 : List (HloOp τ sig (Elt F))).Forall fun op => op.writes ⊆ (written5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## From the launch to the first region's entry -/

/-- A buffer none of the five leading stretches writes holds at the first region's entry what it held at the launch. -/
theorem keep5 (c : Dev nD) (r : Ref sig .tc) (h0 : r ∉ written0) (h1 : r ∉ written0_1) (h2 : r ∉ written0_2) (h3 : r ∉ written0_3)
    (h4 : r ∉ written0_4) : W5 m ρ c (Proc.devRef .tc r) = W0 m ρ c (Proc.devRef .tc r) :=
  (StableHlo.after_of_writes_sub hostOps0_4 _ writes0_4 h4).trans
    ((StableHlo.after_of_writes_sub hostOps0_3 _ writes0_3 h3).trans
      ((StableHlo.after_of_writes_sub hostOps0_2 _ writes0_2 h2).trans
        ((StableHlo.after_of_writes_sub hostOps0_1 _ writes0_1 h1).trans
          (StableHlo.after_of_writes_sub hostOps0 _ writes0 h0))))

/-- An argument array at the first region's entry is as launched. -/
theorem arg5 (c : Dev nD) (r : Ref sig .tc) (h0 : r ∉ written0) (h1 : r ∉ written0_1) (h2 : r ∉ written0_2) (h3 : r ∉ written0_3)
    (h4 : r ∉ written0_4) : W5 m ρ c (Proc.devRef .tc r) = m ((c : Thread nD τ).loc r) :=
  (keep5 m ρ c r h0 h1 h2 h3 h4).trans rfl

/-! ## From the first region's entry onwards -/

/-- Across region 0: a buffer that is none of its arrays. -/
theorem keep6 (c : Dev nD) (r : Ref sig .tc) (a0 : ∀ w, Pipeline.arrRef spec0 w ≠ r) :
    W6 m ρ c (Proc.devRef .tc r) = W5 m ρ c (Proc.devRef .tc r) := W6_of_ne m ρ c r a0

/-- … and across the stretch after it. -/
theorem keep7 (c : Dev nD) (r : Ref sig .tc) (a0 : ∀ w, Pipeline.arrRef spec0 w ≠ r) (b1 : r ∉ written1) :
    W7 m ρ c (Proc.devRef .tc r) = W5 m ρ c (Proc.devRef .tc r) :=
  (StableHlo.after_of_writes_sub hostOps1 _ writes1 b1).trans (keep6 m ρ c r a0)

/-- … and across region 1. -/
theorem keep8 (c : Dev nD) (r : Ref sig .tc) (a0 : ∀ w, Pipeline.arrRef spec0 w ≠ r) (b1 : r ∉ written1)
    (a1 : ∀ w, Pipeline.arrRef spec1 w ≠ r) : W8 m ρ c (Proc.devRef .tc r) = W5 m ρ c (Proc.devRef .tc r) :=
  (W8_of_ne m ρ c r a1).trans (keep7 m ρ c r a0 b1)

/-- … and across region 2. -/
theorem keep9 (c : Dev nD) (r : Ref sig .tc) (a0 : ∀ w, Pipeline.arrRef spec0 w ≠ r) (b1 : r ∉ written1)
    (a1 : ∀ w, Pipeline.arrRef spec1 w ≠ r) (a2 : ∀ w, Pipeline.arrRef spec2 w ≠ r) :
    W9 m ρ c (Proc.devRef .tc r) = W5 m ρ c (Proc.devRef .tc r) :=
  (W9_of_ne m ρ c r a2).trans (keep8 m ρ c r a0 b1 a1)

/-- … and across the stretch after it. -/
theorem keep10 (c : Dev nD) (r : Ref sig .tc) (a0 : ∀ w, Pipeline.arrRef spec0 w ≠ r) (b1 : r ∉ written1)
    (a1 : ∀ w, Pipeline.arrRef spec1 w ≠ r) (a2 : ∀ w, Pipeline.arrRef spec2 w ≠ r) (b3 : r ∉ written3) :
    W10 m ρ c (Proc.devRef .tc r) = W5 m ρ c (Proc.devRef .tc r) :=
  (StableHlo.after_of_writes_sub hostOps3 _ writes3 b3).trans (keep9 m ρ c r a0 b1 a1 a2)

/-- … and across region 3. -/
theorem keep11 (c : Dev nD) (r : Ref sig .tc) (a0 : ∀ w, Pipeline.arrRef spec0 w ≠ r) (b1 : r ∉ written1)
    (a1 : ∀ w, Pipeline.arrRef spec1 w ≠ r) (a2 : ∀ w, Pipeline.arrRef spec2 w ≠ r) (b3 : r ∉ written3)
    (a3 : ∀ w, Pipeline.arrRef spec3 w ≠ r) : W11 m ρ c (Proc.devRef .tc r) = W5 m ρ c (Proc.devRef .tc r) :=
  (W11_of_ne m ρ c r a3).trans (keep10 m ρ c r a0 b1 a1 a2 b3)

/-- … and across region 4. -/
theorem keep12 (c : Dev nD) (r : Ref sig .tc) (a0 : ∀ w, Pipeline.arrRef spec0 w ≠ r) (b1 : r ∉ written1)
    (a1 : ∀ w, Pipeline.arrRef spec1 w ≠ r) (a2 : ∀ w, Pipeline.arrRef spec2 w ≠ r) (b3 : r ∉ written3)
    (a3 : ∀ w, Pipeline.arrRef spec3 w ≠ r) (a4 : ∀ w, Pipeline.arrRef spec4 w ≠ r) :
    W12 m ρ c (Proc.devRef .tc r) = W5 m ρ c (Proc.devRef .tc r) :=
  (W12_of_ne m ρ c r a4).trans (keep11 m ρ c r a0 b1 a1 a2 b3 a3)

/-- Region 2 reads the first layer's output through an input window and never writes it back: it is still there at the
    region's exit. -/
theorem hidden_kept9 (c : Dev nD) : W9 m ρ c (Proc.devRef .tc main_v76) = W8 m ρ c (Proc.devRef .tc main_v76) :=
  (W9_arr m ρ c 0).trans (((dat2 (V8 m ρ) c).arrAt_in 0 rfl _).trans (A_eq2 (V8 m ρ) c 0))

/-- … and the stretch after region 2 does not write it either. -/
theorem hidden_kept10 (c : Dev nD) : W10 m ρ c (Proc.devRef .tc main_v76) = W8 m ρ c (Proc.devRef .tc main_v76) :=
  (StableHlo.after_of_writes_sub hostOps3 _ writes3 (by decide)).trans (hidden_kept9 m ρ c)

end Cert.KernelIdeal.Keep

end
-- ==== Proof.Stages.lean ====
/-
  The dense stages of the three-layer graph network, each as ONE whole-array function at the ideal (extended real)
  values, written with the operations and dimension records of the reference program so that the reference's
  composed result is, literally, a composition of these stages and of its gather / scatter glue.

  * `linear128 x w`, `linear40 x w` — the product of the node features `x` (one row per node) by a weight matrix;
  * `biasRelu x b`   — every row of `x` plus the bias row `b`, then the maximum with zero;
  * `combine h a b`  — `0.1 · h + 1 · (a + b)`, the bias row `b` added to every row of `a`;
  * `shifted y`      — every row of `y` minus that row's largest entry;
  * `logSoftmaxRows y` — `shifted y` minus, in every row, the logarithm of the sum of the exponentials of that row
    of `shifted y`;
  * `biasLogSoftmax x b` — `logSoftmaxRows` of `x` with the bias row `b` added to every row.
-/
import proofs.«101195_j59442347377119_1_alg».proof.ReferenceIdeal
import Idealize.ShloMosaic.PureOps.Ideal

noncomputable section

namespace Cert.Stages

open Idealize.ShloMosaic Idealize.ShloMosaic.TcCoe Idealize.SL.Sem Cert.ReferenceIdeal

variable [Cert.ReferenceIdeal.Facts]
open Cert.ReferenceIdeal.Facts₀ Cert.ReferenceIdeal.Facts

/-- Node features times a 128 × 128 weight matrix. -/
def linear128 (x : FVec Ideal S50000x128 .f32) (w : FVec Ideal S128x128 .f32) : FVec Ideal S50000x128 .f32 :=
  Host.dotGeneral dot_S50000x128_S128x128_S50000x128_1_0_0_1_n_n none x w

/-- Node features times a 128 × 40 weight matrix. -/
def linear40 (x : FVec Ideal S50000x128 .f32) (w : FVec Ideal S128x40 .f32) : FVec Ideal S50000x40 .f32 :=
  Host.dotGeneral dot_S50000x128_S128x40_S50000x40_1_0_0_1_n_n none x w

/-- Every row plus the bias row, then the maximum with zero. -/
def biasRelu (x : FVec Ideal S50000x128 .f32) (b : FVec Ideal S1x128 .f32) : FVec Ideal S50000x128 .f32 :=
  maximumf (addf x (broadcastInDim S50000x128 ![0, 1] bcast_S1x128_S50000x128_0_1 b))
    (broadcastInDim S50000x128 ![] bcast_S_S50000x128 (constant S_ .f32 0x00000000#32))

/-- `0.1 · h + 1 · (a + b)`, the bias row added to every row of `a`. -/
def combine (h a : FVec Ideal S50000x128 .f32) (b : FVec Ideal S1x128 .f32) : FVec Ideal S50000x128 .f32 :=
  addf (mulf (broadcastInDim S50000x128 ![] bcast_S_S50000x128 (constant S_ .f32 0x3DCCCCCD#32)) h)
    (mulf (broadcastInDim S50000x128 ![] bcast_S_S50000x128 (constant S_ .f32 0x3F800000#32))
      (addf a (broadcastInDim S50000x128 ![0, 1] bcast_S1x128_S50000x128_0_1 b)))

/-- Every row minus its largest entry (the row maximum taken from minus infinity, then once more against minus infinity). -/
def shifted (y : FVec Ideal S50000x40 .f32) : FVec Ideal S50000x40 .f32 :=
  subf y (broadcastInDim S50000x40 ![0, 1] bcast_S50000x1_S50000x40_0_1
    (broadcastInDim S50000x1 ![0] bcast_S50000_S50000x1_0
      (maximumf (broadcastInDim S50000 ![] bcast_S_S50000 (constant S_ .f32 0xFF800000#32))
        (Host.reduce FloatOps.maximumf y (constant S_ .f32 0xFF800000#32) reducesTo_S50000x40_S50000_d1 h_S_))))

/-- The shifted rows minus the logarithm of the sum of their exponentials. -/
def logSoftmaxRows (y : FVec Ideal S50000x40 .f32) : FVec Ideal S50000x40 .f32 :=
  subf (shifted y) (broadcastInDim S50000x40 ![0, 1] bcast_S50000x1_S50000x40_0_1
    (Host.log (broadcastInDim S50000x1 ![0] bcast_S50000_S50000x1_0
      (Host.reduceAdd (Host.exp (shifted y)) (constant S_ .f32 0x00000000#32) reducesTo_S50000x40_S50000_d1 h_S_))))

/-- The bias row added to every row, then the row-wise log-softmax. -/
def biasLogSoftmax (x : FVec Ideal S50000x40 .f32) (b : FVec Ideal S1x40 .f32) : FVec Ideal S50000x40 .f32 :=
  logSoftmaxRows (addf x (broadcastInDim S50000x40 ![0, 1] bcast_S1x40_S50000x40_0_1 b))

end Cert.Stages

end
-- ==== Proof.Network.lean ====
/-
  The whole network as ONE function of the nine argument arrays, at the ideal (extended real) values.

  The graph has 50000 nodes and 800000 edges; `ei` holds the edges' source row and destination row. Every
  convolution first appends one self-loop per node (`withLoops`: the node's own number; `withOnes`: weight one),
  weighs edge e by  n(e) = dinv(src e) · w(e) · dinv(dst e)  with  dinv = 1/√deg  where the weighted in-degree
  `deg` is positive and zero elsewhere (`edgeNorm`), and then sends every node the sum over its incoming edges of
  the source's feature row times n(e) (`aggregate…`: a gather of rows, a product, a scatter-add into zeros). A
  negative row number is wrapped around once (`wrapped`) before rows are gathered.

  Layers:  h1 = max(agg₁(x·W1) + b1, 0);  hc = 0.1·h1 + 1·(agg₂(h1·W2) + b2);  out = logsoftmax(agg₁(hc·W3) + b3),
  agg₁ with unit edge weights, agg₂ with the given edge weights. The dense stages are those of `Cert.Stages`.
-/
import proofs.«101195_j59442347377119_1_alg».proof.Proof.Stages

noncomputable section

namespace Cert.Stages

open Idealize.ShloMosaic Idealize.ShloMosaic.TcCoe Idealize.SL.Sem Cert.ReferenceIdeal

variable [Cert.ReferenceIdeal.Facts]
open Cert.ReferenceIdeal.Facts₀ Cert.ReferenceIdeal.Facts

/-- An array of 32-bit integers of shape `s`. -/
abbrev IArr (s : Shape) : Type := IVec s 32
/-- An array of extended reals of shape `s`. -/
abbrev FArr (s : Shape) : Type := FVec Ideal s .f32

/-- The edges' source nodes: row 0 of the edge list. -/
def srcOf (ei : IArr S2x800000) : IArr S800000 :=
  shapeCast S800000 (extractStridedSlice S1x800000 ![0, 0] ei slices_S2x800000_S1x800000_0_0) shapeCasts_S1x800000_S800000

/-- The edges' destination nodes: row 1 of the edge list. -/
def dstOf (ei : IArr S2x800000) : IArr S800000 :=
  shapeCast S800000 (extractStridedSlice S1x800000 ![1, 0] ei slices_S2x800000_S1x800000_1_0) shapeCasts_S1x800000_S800000

/-- One self-loop per node appended to a list of edge endpoints. -/
def withLoops (a : IArr S800000) : IArr S850000 :=
  concatenate S850000 0 [⟨S800000, a⟩, ⟨S50000, iotaInDim S50000 32 0⟩] concatenates_S800000_S50000_S850000_d0

/-- Weight one for every self-loop appended to the edge weights. -/
def withOnes (w : FArr S800000) : FArr S850000 :=
  concatenate S850000 0 [⟨S800000, w⟩, ⟨S50000, broadcastInDim S50000 ![] bcast_S_S50000 (constant S_ .f32 0x3F800000#32)⟩]
    concatenates_S800000_S50000_S850000_d0

/-- Weight one on every edge. -/
def unitWeights : FArr S800000 := broadcastInDim S800000 ![] bcast_S_S800000 (constant S_ .f32 0x3F800000#32)

/-- A negative row number wrapped around once: `i + 50000` where `i < 0`, else `i`. -/
def wrapped (i : IArr S850000) : IArr S850000 :=
  select (cmpi .slt i (broadcastInDim S850000 ![] bcast_S_S850000 (constantI S_ 32 0#32)))
    (addi i (broadcastInDim S850000 ![] bcast_S_S850000 (constantI S_ 32 50000#32))) i

/-- The weighted in-degree: at node v the sum of the weights of the edges (self-loops included) that end at v. -/
def degree (d : IArr S850000) (ww : FArr S850000) : FArr S50000 :=
  Host.scatterAdd scatter_S50000_S850000x1_S850000_n_0_0_1
    (broadcastInDim S50000 ![] bcast_S_S50000 (constant S_ .f32 0x00000000#32))
    (broadcastInDim S850000x1 ![0] bcast_S850000_S850000x1_0 d) ww

/-- `1/√deg` where the degree is positive, zero elsewhere. -/
def invSqrtDeg (deg : FArr S50000) : FArr S50000 :=
  select (cmpf .ogt deg (broadcastInDim S50000 ![] bcast_S_S50000 (constant S_ .f32 0x00000000#32))) (Host.rsqrt deg)
    (broadcastInDim S50000 ![] bcast_S_S50000 (id (constant S_ .f32 0x00000000#32)))

/-- The symmetric normalisation of edge e: `dinv(src e) · w(e) · dinv(dst e)`. -/
def edgeNorm (s d : IArr S850000) (ww : FArr S850000) : FArr S850000 :=
  mulf (mulf (Host.gather gather_S50000_S850000x1_S850000_n_0_n_n_0_1_1 (invSqrtDeg (degree d ww))
      (broadcastInDim S850000x1 ![0] bcast_S850000_S850000x1_0 (wrapped s))) ww)
    (Host.gather gather_S50000_S850000x1_S850000_n_0_n_n_0_1_1 (invSqrtDeg (degree d ww))
      (broadcastInDim S850000x1 ![0] bcast_S850000_S850000x1_0 (wrapped d)))

/-- Message passing on 128-wide rows: node v receives the sum over the edges e ending at v of row `src e` of `h` times `nrm e`. -/
def aggregate128 (h : FArr S50000x128) (s d : IArr S850000) (nrm : FArr S850000) : FArr S50000x128 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf (Host.gather gather_S50000x128_S850000x1_S850000x128_1_0_n_n_0_1_1128 h
        (broadcastInDim S850000x1 ![0] bcast_S850000_S850000x1_0 (wrapped s)))
      (broadcastInDim S850000x128 ![0, 1] bcast_S850000x1_S850000x128_0_1
        (broadcastInDim S850000x1 ![0] bcast_S850000_S850000x1_0 nrm)))

/-- Message passing on 40-wide rows. -/
def aggregate40 (h : FArr S50000x40) (s d : IArr S850000) (nrm : FArr S850000) : FArr S50000x40 :=
  Host.scatterAdd scatter_S50000x40_S850000x1_S850000x40_1_0_0_1
    (broadcastInDim S50000x40 ![] bcast_S_S50000x40 (constant S_ .f32 0x00000000#32))
    (broadcastInDim S850000x1 ![0] bcast_S850000_S850000x1_0 d)
    (mulf (Host.gather gather_S50000x40_S850000x1_S850000x40_1_0_n_n_0_1_140 h
        (broadcastInDim S850000x1 ![0] bcast_S850000_S850000x1_0 (wrapped s)))
      (broadcastInDim S850000x40 ![0, 1] bcast_S850000x1_S850000x40_0_1
        (broadcastInDim S850000x1 ![0] bcast_S850000_S850000x1_0 nrm)))

/-- A 128-entry bias as the one row of a [1, 128] array. -/
def biasRow128 (b : FArr S128) : FArr S1x128 := broadcastInDim S1x128 ![1] bcast_S128_S1x128_1 b
/-- A 40-entry bias as the one row of a [1, 40] array. -/
def biasRow40 (b : FArr S40) : FArr S1x40 := broadcastInDim S1x40 ![1] bcast_S40_S1x40_1 b

/-- Sources and destinations with the self-loops appended. -/
def loopsSrc (ei : IArr S2x800000) : IArr S850000 := withLoops (srcOf ei)
def loopsDst (ei : IArr S2x800000) : IArr S850000 := withLoops (dstOf ei)

/-- The edge normalisation with unit weights, and with the given weights. -/
def norm1 (ei : IArr S2x800000) : FArr S850000 := edgeNorm (loopsSrc ei) (loopsDst ei) (withOnes unitWeights)
def norm2 (ei : IArr S2x800000) (ew : FArr S800000) : FArr S850000 := edgeNorm (loopsSrc ei) (loopsDst ei) (withOnes ew)

/-- The first layer: `max(agg₁(x·W1) + b1, 0)`. -/
def hidden1 (x : FArr S50000x128) (ei : IArr S2x800000) (W1 : FArr S128x128) (b1 : FArr S128) : FArr S50000x128 :=
  biasRelu (aggregate128 (linear128 x W1) (loopsSrc ei) (loopsDst ei) (norm1 ei)) (biasRow128 b1)

/-- The second layer joined to the first: `0.1·h1 + 1·(agg₂(h1·W2) + b2)`. -/
def hidden2 (x : FArr S50000x128) (ei : IArr S2x800000) (ew : FArr S800000) (W1 : FArr S128x128) (b1 : FArr S128)
    (W2 : FArr S128x128) (b2 : FArr S128) : FArr S50000x128 :=
  combine (hidden1 x ei W1 b1)
    (aggregate128 (linear128 (hidden1 x ei W1 b1) W2) (loopsSrc ei) (loopsDst ei) (norm2 ei ew)) (biasRow128 b2)

/-- The network's result: `logsoftmax(agg₁(hc·W3) + b3)` along each node's 40 scores. -/
def network (x : FArr S50000x128) (ei : IArr S2x800000) (ew : FArr S800000) (W1 : FArr S128x128) (b1 : FArr S128)
    (W2 : FArr S128x128) (b2 : FArr S128) (W3 : FArr S128x40) (b3 : FArr S40) : FArr S50000x40 :=
  biasLogSoftmax (aggregate40 (linear40 (hidden2 x ei ew W1 b1 W2 b2) W3) (loopsSrc ei) (loopsDst ei) (norm1 ei)) (biasRow40 b3)

end Cert.Stages

end
-- ==== Proof.KernelEntry.lean ====
/-
  What the kernel program's five leading stretches of host operations leave in the buffers the first dense region
  and the later gathers and scatters read.

  From the edge list (argument 1; row 0 the sources, row 1 the destinations) and the edge weights (argument 2) the
  stretches compute, twice over:

  * the two rows of the edge list, each with one self-loop per node appended (the node's own number);
  * the edge weights with a weight one per self-loop appended — all ones the first time, the given weights the
    second time;
  * the weighted in-degree of every node (a scatter-add of the weights at the destinations into zeros), and its
    inverse square root where the degree is positive, zero elsewhere;
  * the normalisation of every edge: the inverse square root at its source, times its weight, times the inverse
    square root at its destination (a negative node number wrapped around once before it is looked up).

  Stated here: the buffers of the endpoints with self-loops and of the two normalisations hold, when the first
  region is entered, the corresponding functions of the two arguments.

  Each stretch is a function from the contents it starts from to the contents it leaves. The lemmas below state, for
  ANY starting contents, what one buffer holds after a stretch as a term in the starting contents of the buffers that
  stretch reads (the selection "where the degree is positive" is a called function: after it, its result buffer
  holds the selection of the three buffers it is called on); the contents at the first region's entry are these
  functions composed, starting from the launch memory.
-/
import proofs.«101195_j59442347377119_1_alg».proof.Proof.Gen.KernelIdeal.Frame
import proofs.«101195_j59442347377119_1_alg».proof.Proof.Network
import Idealize.ShloMosaic.Lib.StableHlo.Run

set_option maxRecDepth 65536
set_option maxHeartbeats 4000000

noncomputable section

namespace Cert.KernelIdeal.Entry

open Cert.KernelIdeal Cert.KernelIdeal.Gen Cert.Stages Idealize.ShloMosaic Idealize.ShloMosaic.TcCoe Idealize.SL.Sem Idealize.ShloMosaic.StableHlo

variable [Cert.ReferenceIdeal.Facts] (m : (ℓ : Loc nD τ sig) → Buf (Elt Ideal) ℓ) (ρ : Dev nD → PrngReg) (c : Dev nD)

/-- The contents at the first region's entry are the five leading stretches folded over the launch memory. -/
theorem W5_unfold (b : DevRef τ sig) : W5 m ρ c b
    = StableHlo.after hostOps0_4 (StableHlo.after hostOps0_3 (StableHlo.after hostOps0_2 (StableHlo.after hostOps0_1
        (StableHlo.after hostOps0 (W0 m ρ c))))) b := rfl

/-- Reads each remaining operation's result at its own buffer and the other buffers as they were, one at a time, also
    inside the two pieces of a concatenation. -/
macro "finish_reads" : tactic =>
  `(tactic| repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)))

/-! ### The first stretch, from the launch memory: the rows of the edge list, the self-loops, the unit weights, the
degree with its comparison against zero and its inverse square root -/
theorem a_v1 : StableHlo.after hostOps0 (W0 m ρ c) (Proc.devRef .tc main_v1) = srcOf (m ((c : Thread nD τ).loc main_arg1)) := by after_results_simp; finish_reads; all_goals rfl
theorem a_v3 : StableHlo.after hostOps0 (W0 m ρ c) (Proc.devRef .tc main_v3) = dstOf (m ((c : Thread nD τ).loc main_arg1)) := by after_results_simp; finish_reads; all_goals rfl
theorem a_arg2 : StableHlo.after hostOps0 (W0 m ρ c) (Proc.devRef .tc main_arg2) = (m ((c : Thread nD τ).loc main_arg2)) := by after_results_simp; finish_reads; all_goals rfl
theorem a_v6 : StableHlo.after hostOps0 (W0 m ρ c) (Proc.devRef .tc main_v6) = loopsSrc (m ((c : Thread nD τ).loc main_arg1)) := by after_results_simp; finish_reads; all_goals rfl
theorem a_v7 : StableHlo.after hostOps0 (W0 m ρ c) (Proc.devRef .tc main_v7) = loopsDst (m ((c : Thread nD τ).loc main_arg1)) := by after_results_simp; finish_reads; all_goals rfl
theorem a_v9 : StableHlo.after hostOps0 (W0 m ρ c) (Proc.devRef .tc main_v9) = withOnes unitWeights := by after_results_simp; finish_reads; all_goals rfl
theorem a_v14 : StableHlo.after hostOps0 (W0 m ρ c) (Proc.devRef .tc main_v14)
    = cmpf .ogt (degree (loopsDst (m ((c : Thread nD τ).loc main_arg1))) (withOnes unitWeights)) (broadcastInDim S50000 ![] bcast_S_S50000 (constant (F := Ideal) S_ .f32 0x00000000#32)) := by after_results_simp; finish_reads; all_goals rfl
theorem a_v15 : StableHlo.after hostOps0 (W0 m ρ c) (Proc.devRef .tc main_v15)
    = Host.rsqrt (degree (loopsDst (m ((c : Thread nD τ).loc main_arg1))) (withOnes unitWeights)) := by after_results_simp; finish_reads; all_goals rfl
theorem a_cst3 : StableHlo.after hostOps0 (W0 m ρ c) (Proc.devRef .tc main_cst_3) = constant (F := Ideal) S_ .f32 0x00000000#32 := by after_results_simp; finish_reads; all_goals rfl

/-! ### The first selection (inverse square root where the degree is positive, zero elsewhere), from any contents -/
theorem where1 (V : Valuation τ sig (Elt Ideal)) : StableHlo.after hostOps0_1 V (Proc.devRef .tc main_v16)
    = (select (V (Proc.devRef .tc main_v14) : IVec S50000 1) (V (Proc.devRef .tc main_v15) : FArr S50000)
        (broadcastInDim S50000 ![] bcast_S_S50000 (id (V (Proc.devRef .tc main_cst_3) : FArr S_))) : FArr S50000) := by after_results_simp; finish_reads; all_goals rfl
theorem keep1_v6 (V : Valuation τ sig (Elt Ideal)) : StableHlo.after hostOps0_1 V (Proc.devRef .tc main_v6) = V (Proc.devRef .tc main_v6) := by after_results_simp; finish_reads; all_goals rfl
theorem keep1_v7 (V : Valuation τ sig (Elt Ideal)) : StableHlo.after hostOps0_1 V (Proc.devRef .tc main_v7) = V (Proc.devRef .tc main_v7) := by after_results_simp; finish_reads; all_goals rfl
theorem keep1_v9 (V : Valuation τ sig (Elt Ideal)) : StableHlo.after hostOps0_1 V (Proc.devRef .tc main_v9) = V (Proc.devRef .tc main_v9) := by after_results_simp; finish_reads; all_goals rfl
theorem keep1_v1 (V : Valuation τ sig (Elt Ideal)) : StableHlo.after hostOps0_1 V (Proc.devRef .tc main_v1) = V (Proc.devRef .tc main_v1) := by after_results_simp; finish_reads; all_goals rfl
theorem keep1_v3 (V : Valuation τ sig (Elt Ideal)) : StableHlo.after hostOps0_1 V (Proc.devRef .tc main_v3) = V (Proc.devRef .tc main_v3) := by after_results_simp; finish_reads; all_goals rfl
theorem keep1_arg2 (V : Valuation τ sig (Elt Ideal)) : StableHlo.after hostOps0_1 V (Proc.devRef .tc main_arg2) = V (Proc.devRef .tc main_arg2) := by after_results_simp; finish_reads; all_goals rfl

/-! ### The second stretch, from any contents: the unit-weight normalisation; then the self-loops again, the given
weights with ones appended, their degree with its comparison and inverse square root -/
theorem n1 (V : Valuation τ sig (Elt Ideal)) : StableHlo.after hostOps0_2 V (Proc.devRef .tc main_v32)
    = (mulf (mulf (Host.gather gather_S50000_S850000x1_S850000_n_0_n_n_0_1_1 (V (Proc.devRef .tc main_v16) : FArr S50000) (broadcastInDim S850000x1 ![0] bcast_S850000_S850000x1_0 (wrapped (V (Proc.devRef .tc main_v6) : IArr S850000)))) (V (Proc.devRef .tc main_v9) : FArr S850000))
        (Host.gather gather_S50000_S850000x1_S850000_n_0_n_n_0_1_1 (V (Proc.devRef .tc main_v16) : FArr S50000) (broadcastInDim S850000x1 ![0] bcast_S850000_S850000x1_0 (wrapped (V (Proc.devRef .tc main_v7) : IArr S850000)))) : FArr S850000) := by after_results_simp; finish_reads; all_goals rfl
theorem e_v34 (V : Valuation τ sig (Elt Ideal)) : StableHlo.after hostOps0_2 V (Proc.devRef .tc main_v34) = withLoops (V (Proc.devRef .tc main_v1) : IArr S800000) := by after_results_simp; finish_reads; all_goals rfl
theorem e_v35 (V : Valuation τ sig (Elt Ideal)) : StableHlo.after hostOps0_2 V (Proc.devRef .tc main_v35) = withLoops (V (Proc.devRef .tc main_v3) : IArr S800000) := by after_results_simp; finish_reads; all_goals rfl
theorem e_v37 (V : Valuation τ sig (Elt Ideal)) : StableHlo.after hostOps0_2 V (Proc.devRef .tc main_v37) = withOnes (V (Proc.devRef .tc main_arg2) : FArr S800000) := by after_results_simp; finish_reads; all_goals rfl
theorem e_v42 (V : Valuation τ sig (Elt Ideal)) : StableHlo.after hostOps0_2 V (Proc.devRef .tc main_v42)
    = cmpf .ogt (degree (withLoops (V (Proc.devRef .tc main_v3) : IArr S800000)) (withOnes (V (Proc.devRef .tc main_arg2) : FArr S800000))) (broadcastInDim S50000 ![] bcast_S_S50000 (constant (F := Ideal) S_ .f32 0x00000000#32)) := by after_results_simp; finish_reads; all_goals rfl
theorem e_v43 (V : Valuation τ sig (Elt Ideal)) : StableHlo.after hostOps0_2 V (Proc.devRef .tc main_v43)
    = Host.rsqrt (degree (withLoops (V (Proc.devRef .tc main_v3) : IArr S800000)) (withOnes (V (Proc.devRef .tc main_arg2) : FArr S800000))) := by after_results_simp; finish_reads; all_goals rfl
theorem e_cst10 (V : Valuation τ sig (Elt Ideal)) : StableHlo.after hostOps0_2 V (Proc.devRef .tc main_cst_10) = constant (F := Ideal) S_ .f32 0x00000000#32 := by after_results_simp; finish_reads; all_goals rfl

/-! ### The second selection, from any contents -/
theorem where3 (V : Valuation τ sig (Elt Ideal)) : StableHlo.after hostOps0_3 V (Proc.devRef .tc main_v44)
    = (select (V (Proc.devRef .tc main_v42) : IVec S50000 1) (V (Proc.devRef .tc main_v43) : FArr S50000)
        (broadcastInDim S50000 ![] bcast_S_S50000 (id (V (Proc.devRef .tc main_cst_10) : FArr S_))) : FArr S50000) := by after_results_simp; finish_reads; all_goals rfl
theorem keep3_v32 (V : Valuation τ sig (Elt Ideal)) : StableHlo.after hostOps0_3 V (Proc.devRef .tc main_v32) = V (Proc.devRef .tc main_v32) := by after_results_simp; finish_reads; all_goals rfl
theorem keep3_v34 (V : Valuation τ sig (Elt Ideal)) : StableHlo.after hostOps0_3 V (Proc.devRef .tc main_v34) = V (Proc.devRef .tc main_v34) := by after_results_simp; finish_reads; all_goals rfl
theorem keep3_v35 (V : Valuation τ sig (Elt Ideal)) : StableHlo.after hostOps0_3 V (Proc.devRef .tc main_v35) = V (Proc.devRef .tc main_v35) := by after_results_simp; finish_reads; all_goals rfl
theorem keep3_v37 (V : Valuation τ sig (Elt Ideal)) : StableHlo.after hostOps0_3 V (Proc.devRef .tc main_v37) = V (Proc.devRef .tc main_v37) := by after_results_simp; finish_reads; all_goals rfl

/-! ### The last leading stretch, from any contents: the weighted normalisation -/
theorem n2 (V : Valuation τ sig (Elt Ideal)) : StableHlo.after hostOps0_4 V (Proc.devRef .tc main_v60)
    = (mulf (mulf (Host.gather gather_S50000_S850000x1_S850000_n_0_n_n_0_1_1 (V (Proc.devRef .tc main_v44) : FArr S50000) (broadcastInDim S850000x1 ![0] bcast_S850000_S850000x1_0 (wrapped (V (Proc.devRef .tc main_v34) : IArr S850000)))) (V (Proc.devRef .tc main_v37) : FArr S850000))
        (Host.gather gather_S50000_S850000x1_S850000_n_0_n_n_0_1_1 (V (Proc.devRef .tc main_v44) : FArr S50000) (broadcastInDim S850000x1 ![0] bcast_S850000_S850000x1_0 (wrapped (V (Proc.devRef .tc main_v35) : IArr S850000)))) : FArr S850000) := by after_results_simp; finish_reads; all_goals rfl
theorem keep4_v32 (V : Valuation τ sig (Elt Ideal)) : StableHlo.after hostOps0_4 V (Proc.devRef .tc main_v32) = V (Proc.devRef .tc main_v32) := by after_results_simp; finish_reads; all_goals rfl

/-! ### The edge endpoints at the first region's entry -/
theorem entry_src : W5 m ρ c (Proc.devRef .tc main_v6) = loopsSrc (m ((c : Thread nD τ).loc main_arg1)) := by
  rw [W5_unfold]; after_results_simp; rfl
theorem entry_dst : W5 m ρ c (Proc.devRef .tc main_v7) = loopsDst (m ((c : Thread nD τ).loc main_arg1)) := by
  rw [W5_unfold]; after_results_simp; rfl
theorem entry_src' : W5 m ρ c (Proc.devRef .tc main_v34) = loopsSrc (m ((c : Thread nD τ).loc main_arg1)) := by
  rw [W5_unfold]; after_results_simp; rfl
theorem entry_dst' : W5 m ρ c (Proc.devRef .tc main_v35) = loopsDst (m ((c : Thread nD τ).loc main_arg1)) := by
  rw [W5_unfold]; after_results_simp; rfl

/-! ### The two normalisations at the first region's entry -/
theorem entry_norm1 : W5 m ρ c (Proc.devRef .tc main_v32) = norm1 (m ((c : Thread nD τ).loc main_arg1)) := by
  rw [W5_unfold, keep4_v32, keep3_v32, n1, where1, keep1_v6, keep1_v7, keep1_v9, a_v6, a_v7, a_v9, a_v14, a_v15, a_cst3]
  rfl

theorem entry_norm2 : W5 m ρ c (Proc.devRef .tc main_v60) = norm2 (m ((c : Thread nD τ).loc main_arg1)) (m ((c : Thread nD τ).loc main_arg2)) := by
  rw [W5_unfold, n2, where3, keep3_v34, keep3_v35, keep3_v37, e_v34, e_v35, e_v37, e_v42, e_v43, e_cst10,
    keep1_v1, keep1_v3, keep1_arg2, a_v1, a_v3, a_arg2]
  rfl

end Cert.KernelIdeal.Entry

end
-- ==== Proof.LibPlainDot.lean ====
/-
  The plain matrix product read at an entry, over the extended reals.

  For the dimension numbers of an ordinary product of an `M × K` matrix by a `K × N` matrix
  (`DotDims.plain M K N`: no batch axis, the left operand contracted on its columns, the right one on its rows),
  at the ideal values:

  * a `tpu.matmul` into the zero accumulator, at entry `(p, q)`, is `∑ k, lhs (p, k) * rhs (k, q)`
    (`matmul_zero_plain`);
  * the host's `dot_general`, at entry `(p, q)`, is the same sum, whatever its schedule key (`dotGeneral_plain`).

  Both are generic in the three extents and in the operands' float formats (a change of format is the identity
  at the ideal values). The contraction index of these dimension numbers has one axis, of extent `K`; the sum over
  it is re-indexed to a sum over `Fin K` through `ValueIdx.contrEquiv1`, and the operand indices at output index
  `(p, q)` and contraction coordinate `k` are `(p, k)` and `(k, q)`, coordinate by coordinate.
-/
import Idealize.ShloMosaic.Lib.ValueIdx
import Idealize.ShloMosaic.PureOps.Ideal.Laws

open Idealize.ShloMosaic Idealize.ShloMosaic.ValueIdx
open scoped BigOperators

noncomputable section

namespace Cert.LibPlainDot

variable {M K N : Nat}

/-- The left operand's index at output `(p, q)` and contraction coordinate `k` is `(p, k)`. -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ => exact contrEquiv1_symm_val (DotDims.plain M K N) K rfl rfl k)

/-- The right operand's index at output `(p, q)` and contraction coordinate `k` is `(k, q)`. -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact contrEquiv1_symm_val (DotDims.plain M K N) K rfl rfl k
    | ⟨1, _⟩ => rfl)

/-- A `tpu.matmul` of an `M × K` by a `K × N` operand into the zero accumulator, at entry `(p, q)`: the sum over
    `k` of `lhs (p, k) * rhs (k, q)`. -/
theorem matmul_zero_plain {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` of an `M × K` by a `K × N` operand, at entry `(p, q)`: the same sum. -/
theorem dotGeneral_plain {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.LibPlainDot

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«101195_j59442347377119_1_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.Region0.lean ====
/-
  Region 0: the node features times a weight matrix, computed one block of 5000 node rows at a time.

  The 50000 node rows are cut into 10 blocks of 5000 consecutive rows; grid point t holds block t of the features,
  the whole weight matrix, and writes block t of the result. Entry (p, q) of what point t writes is the sum over k
  of (row p of block t of the features) at k times the weights at (k, q): an entry of a matrix product depends on the
  left factor only through its own row, so this is entry (5000 t + p, q) of the product of the WHOLE feature array
  by the weights. The 10 blocks tile the rows (row r lies in block r / 5000), so after the last point the array holds
  the whole product. At the ideal values the narrowing of both factors to a shorter float format changes nothing.
-/
import proofs.«101195_j59442347377119_1_alg».proof.Proof.Gen.KernelIdeal.Frame
import proofs.«101195_j59442347377119_1_alg».proof.Proof.Stages
import proofs.«101195_j59442347377119_1_alg».proof.Proof.LibPlainDot
import proofs.«101195_j59442347377119_1_alg».proof.Proof.LibRowReduceProducts
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## Entries of the two products -/

/-- Entry (p, q) of what the body stores: row p of its block of features against column q of the weights. -/
theorem payload_entry (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.LibRowReduceProducts.matmulNN dot_S5000x128_S128x128_S5000x128_1_0_0_1_n_n rfl rfl rfl rfl rfl rfl none _ _ p q

variable [Cert.ReferenceIdeal.Facts]

/-- Entry (r, q) of the whole product: row r of the features against column q of the weights. -/
theorem product_entry (A : FVec Ideal Cert.ReferenceIdeal.S50000x128 .f32) (W : FVec Ideal Cert.ReferenceIdeal.S128x128 .f32)
    (r : Fin 50000) (q : Fin 128) :
    Cert.Stages.linear128 A W (ix2 r q) = ∑ k : Fin 128, A (ix2 r k) * W (ix2 k q) := by
  unfold Cert.Stages.linear128
  exact Cert.LibPlainDot.dotGeneral_plain none .single A W r q

/-- When row p of a block is row r of the feature array and the block's weights are the weights, entry (p, q) of the
    block's product is entry (r, q) of the whole product. -/
theorem block_entry (A : FVec Ideal Cert.ReferenceIdeal.S50000x128 .f32) (W : FVec Ideal Cert.ReferenceIdeal.S128x128 .f32)
    (x0 : Vec Ideal S5000x128 .f32) (x1 : Vec Ideal S128x128 .f32) (p : Fin 5000) (q : Fin 128) (r : Fin 50000)
    (h0 : ∀ k : Fin 128, x0 (ix2 p k) = A (ix2 r k)) (h1 : ∀ k : Fin 128, x1 (ix2 k q) = W (ix2 k q)) :
    k0_pay1 x0 x1 (ix2 p q) = Cert.Stages.linear128 A W (ix2 r q) := by
  refine (payload_entry x0 x1 p q).trans ?_
  refine Eq.trans ?_ (product_entry A W r q).symm
  exact Finset.sum_congr rfl fun k _ => by rw [h0 k, h1 k]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: at point t the feature window and the result window sit at block row t, block
    column 0; the weight window stays at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dat0 (F := Ideal) V c).flushed 2 t = ((cfg0.win 2).blk t).view.read (Elt Ideal)
      (Cert.Stages.linear128 (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e00, e01, e10, e11, e20, e21⟩ := index_facts t
  have ht : t.val < 10 := lt_of_lt_of_eq t.isLt N_0
  funext j
  show k0_pay1 (iblk0 V c 0 t) (iblk0 V c 1 t) j
    = Cert.Stages.linear128 (V c (Pipeline.arrRef spec0 0)) (V c (Pipeline.arrRef spec0 1)) (((cfg0.win 2).blk t).view.emb j)
  obtain ⟨p, q, rfl⟩ : ∃ (p : Fin 5000) (q : Fin 128), j = ix2 p q := ⟨j 0, j 1, eq_ix2 j⟩
  have hp : p.val < 5000 := p.isLt
  have hemb : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hemb]
  refine block_entry _ _ _ _ p q _ (fun k => ?_) (fun k => ?_)
  · show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c (Pipeline.arrRef spec0 1) (((cfg0.win 1).blk t).view.emb (ix2 k q)) = _
    refine congrArg (V c (Pipeline.arrRef spec0 1)) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the result array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v61).slice (win0_2.rect t)).set ↔ _
  rw [View.set_slice_whole, Rect.mem_set_unit]
  exact Iff.rfl

/-- Every index of the result array is in the block of the point its row divided by 5000 names. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := lt_of_lt_of_eq (by omega : (i 0).val / 5000 < 10) N_0.symm
  obtain ⟨-, -, -, -, e20, e21⟩ := index_facts ⟨(i 0).val / 5000, hN⟩
  have e20' : win0_2.index ⟨(i 0).val / 5000, hN⟩ (0 : Fin 2) = (i 0).val / 5000 := e20
  refine ⟨⟨(i 0).val / 5000, hN⟩, flush0_2 _, ?_⟩
  rw [mem_block]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    omega
  | ⟨1, _⟩ =>
    show win0_2.index ⟨(i 0).val / 5000, hN⟩ (1 : Fin 2) * 128 ≤ (i 1).val
      ∧ (i 1).val < win0_2.index ⟨(i 0).val / 5000, hN⟩ (1 : Fin 2) * 128 + 128
    omega

/-- After the region the result array is the product of the feature array by the weights, as the region found them. -/
theorem value (c : Dev nD) :
    (dat0 (F := Ideal) V c).arrAt 2 cfg0.N
      = Cert.Stages.linear128 (V c (Pipeline.arrRef spec0 0)) (V c (Pipeline.arrRef spec0 1)) :=
  (dat0 V c).arrAt_eq_of_cover 2 _ (fun t _ => flushed_eq V c t) covered

end Cert.KernelIdeal.Region0

end
-- ==== Proof.Region1.lean ====
/-
  The second region: bias and rectifier, block by block.

  The region walks the 50000 node rows in ten blocks of 5000 rows. At block k it reads rows 5000·k … 5000·k + 4999
  of the [50000, 128] input and the whole [1, 128] bias row, and writes the same rows of the output:

      out (r, q) = max (x (r, q) + bias (0, q)) 0.

  The whole-array function `Cert.Stages.biasRelu` is the same expression at every (r, q) of the [50000, 128] array,
  so what each block writes is that block of `biasRelu` of the two input arrays, and since the ten blocks cover
  every row the output array ends as `biasRelu` of the inputs.
-/
import proofs.«101195_j59442347377119_1_alg».proof.Proof.Gen.KernelIdeal.Frame
import proofs.«101195_j59442347377119_1_alg».proof.Proof.Stages
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts]

/-- The offset (0, 0), written as the constant-zero function. -/
theorem zeros2 : (![0, 0] : Fin 2 → Nat) = fun _ => 0 := funext fun a => by fin_cases a <;> rfl

/-! ## One entry of a block -/

/-- The [1, 128] bias row repeated down the 5000 rows of a block: entry (p, q) is the row's entry (0, q). -/
theorem bias_block_apply (b : Vec Ideal S1x128 .f32) (p : Fin 5000) (q : Fin 128) :
    broadcastTo S5000x128 b broadcasts_S1x128_S5000x128 (ix2 p q) = b (ix2 (0 : Fin 1) q) := by
  refine broadcastTo_apply b _ (ix2 p q) (ix2 (0 : Fin 1) q) fun a => ?_
  match a with
  | ⟨0, _⟩ => rfl
  | ⟨1, _⟩ => rfl

/-- Entry (p, q) of what the body stores: the larger of x (p, q) + bias (0, q) and the number the zero word denotes.
    The two casts to the same shape change nothing; the splat constant reads the same number everywhere. -/
theorem payload_apply (x : Vec Ideal S5000x128 .f32) (b : Vec Ideal S1x128 .f32) (p : Fin 5000) (q : Fin 128) :
    k1_pay1 (F := Ideal) x b (ix2 p q) = max (x (ix2 p q) + b (ix2 (0 : Fin 1) q)) (Ideal.ofBits .f32 0x00000000#32) := by
  unfold k1_pay1
  show max (shapeCast S5000x128 x shapeCasts_S5000x128_S5000x128 (ix2 p q)
      + broadcastTo S5000x128 (shapeCast S1x128 b shapeCasts_S1x128_S1x128) broadcasts_S1x128_S5000x128 (ix2 p q))
    (Ideal.ofBits .f32 0x00000000#32) = _
  rw [shapeCast_self, shapeCast_self, bias_block_apply]

/-! ## One entry of the whole array -/

/-- The [1, 128] bias row repeated down all 50000 rows: entry (r, q) is the row's entry (0, q). -/
theorem bias_array_apply (B : FVec Ideal Cert.ReferenceIdeal.S1x128 .f32) (r : Fin 50000) (q : Fin 128) :
    broadcastInDim Cert.ReferenceIdeal.S50000x128 ![0, 1] Cert.ReferenceIdeal.Facts₀.bcast_S1x128_S50000x128_0_1 B (ix2 r q)
      = B (ix2 (0 : Fin 1) q) := by
  refine broadcastInDim_apply _ _ B (ix2 r q) (ix2 (0 : Fin 1) q) fun a => ?_
  match a with
  | ⟨0, _⟩ => rfl
  | ⟨1, _⟩ => rfl

/-- Entry (r, q) of `biasRelu X B`: the larger of X (r, q) + B (0, q) and the number the zero word denotes (the scalar
    constant spread over the array reads that number at every entry). -/
theorem stage_apply (X : FVec Ideal Cert.ReferenceIdeal.S50000x128 .f32) (B : FVec Ideal Cert.ReferenceIdeal.S1x128 .f32)
    (r : Fin 50000) (q : Fin 128) :
    Cert.Stages.biasRelu X B (ix2 r q) = max (X (ix2 r q) + B (ix2 (0 : Fin 1) q)) (Ideal.ofBits .f32 0x00000000#32) := by
  unfold Cert.Stages.biasRelu
  show max (X (ix2 r q) + broadcastInDim Cert.ReferenceIdeal.S50000x128 ![0, 1]
      Cert.ReferenceIdeal.Facts₀.bcast_S1x128_S50000x128_0_1 B (ix2 r q)) (Ideal.ofBits .f32 0x00000000#32) = _
  rw [bias_array_apply]

/-- A block entry against an array entry. When the block x holds at j what the array X holds at i, the two indices
    have the same column, and the block's bias row is the array's, the stored entry at j is `biasRelu X B` at i. -/
theorem block_apply (X : FVec Ideal Cert.ReferenceIdeal.S50000x128 .f32) (B : FVec Ideal Cert.ReferenceIdeal.S1x128 .f32)
    (x : Vec Ideal S5000x128 .f32) (b : Vec Ideal S1x128 .f32)
    (i : Cert.ReferenceIdeal.S50000x128.Idx) (j : S5000x128.Idx)
    (hcol : (i 1).val = (j 1).val) (hx : x j = X i)
    (hb : ∀ q : Fin 128, b (ix2 (0 : Fin 1) q) = B (ix2 (0 : Fin 1) q)) :
    k1_pay1 (F := Ideal) x b j = Cert.Stages.biasRelu X B i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext hcol
  rw [payload_apply, stage_apply, hx, hb]

/-! ## The blocks -/

/-- Where the blocks sit, decided over the ten grid points: at point t the input and the output are at block row t,
    block column 0; the bias row stays at block (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of `biasRelu` of the two input arrays: entry (p, q) of the block is array
    entry (5000·t + p, q), where the input block holds the input array's entry and the bias block is the whole bias row. -/
theorem flushed_eq (V : (c : Dev nD) → (b : Ref sig .tc) → Buf (Elt Ideal) ((c : Thread nD τ).loc b)) (c : Dev nD)
    (t : Fin cfg1.N) :
    (dat1 (F := Ideal) V c).flushed 2 t = ((cfg1.win 2).blk t).view.read (Elt Ideal)
      (Cert.Stages.biasRelu (V c (Pipeline.arrRef spec1 0)) (V c (Pipeline.arrRef spec1 1))) := by
  show (cfg1.win 2).cut (grid1.coords t) ((dat1 V c).after 2 t) = _
  rw [after1_2]
  unfold out1_2
  rw [View.canon_unit_zero zeros2]
  simp only [View.ld_unit_zero (S := S5000x128) zeros2, View.ld_unit_zero (S := S1x128) zeros2]
  obtain ⟨e00, e01, e10, e11, e20, e21⟩ := index_facts t
  funext j
  show k1_pay1 (iblk1 V c 0 t) (iblk1 V c 1 t) j
    = Cert.Stages.biasRelu (V c (Pipeline.arrRef spec1 0)) (V c (Pipeline.arrRef spec1 1))
        (((cfg1.win 2).blk t).view.emb j)
  refine block_apply _ _ _ _ _ j ?_ ?_ ?_
  · show win1_2.index t (1 : Fin 2) * 128 + 1 * (j 1).val = (j 1).val
    omega
  · show V c (Pipeline.arrRef spec1 0) (((cfg1.win 0).blk t).view.emb j)
      = V c (Pipeline.arrRef spec1 0) (((cfg1.win 2).blk t).view.emb j)
    refine congrArg _ (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * (j 1).val = win1_2.index t (1 : Fin 2) * 128 + 1 * (j 1).val
      omega
  · intro q
    show V c (Pipeline.arrRef spec1 1) (((cfg1.win 1).blk t).view.emb (ix2 (0 : Fin 1) q))
      = V c (Pipeline.arrRef spec1 1) (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega

/-! ## From the blocks to the array -/

/-- An array index is in point t's output block exactly when each coordinate is in the block's range on its axis. -/
theorem mem_block (t : Fin cfg1.N) (i : Cert.ReferenceIdeal.S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v76).slice (win1_2.rect t)).set ↔ _
  rw [View.set_slice_whole, Rect.mem_set_unit]
  exact Iff.rfl

/-- Every array index is in some point's output block: row r is in the block of point r / 5000. -/
theorem covered (i : Cert.ReferenceIdeal.S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by omega⟩
  obtain ⟨e00, e01, e10, e11, e20, e21⟩ := index_facts t
  have ht : t.val = (i 0).val / 5000 := rfl
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The output array after the region: `biasRelu` of the input array and the bias row as the region finds them. -/
theorem value (V : (c : Dev nD) → (b : Ref sig .tc) → Buf (Elt Ideal) ((c : Thread nD τ).loc b)) (c : Dev nD) :
    (dat1 (F := Ideal) V c).arrAt 2 cfg1.N
      = Cert.Stages.biasRelu (V c (Pipeline.arrRef spec1 0)) (V c (Pipeline.arrRef spec1 1)) :=
  (dat1 (F := Ideal) V c).arrAt_eq_of_cover 2 _ (fun t _ => flushed_eq V c t) covered

end Cert.KernelIdeal.Region1

end
-- ==== Proof.Region2.lean ====
/-
  Region 2: the node features times a weight matrix, computed one block of 5000 node rows at a time.

  The 50000 node rows are cut into 10 blocks of 5000 consecutive rows; grid point t holds block t of the features,
  the whole weight matrix, and writes block t of the result. Entry (p, q) of what point t writes is the sum over k
  of (row p of block t of the features) at k times the weights at (k, q): an entry of a matrix product depends on the
  left factor only through its own row, so this is entry (5000 t + p, q) of the product of the WHOLE feature array
  by the weights. The 10 blocks tile the rows (row r lies in block r / 5000), so after the last point the array holds
  the whole product. At the ideal values the narrowing of both factors to a shorter float format changes nothing, and recasting the
  block of features to the shape it already has is the identity.
-/
import proofs.«101195_j59442347377119_1_alg».proof.Proof.Gen.KernelIdeal.Frame
import proofs.«101195_j59442347377119_1_alg».proof.Proof.Stages
import proofs.«101195_j59442347377119_1_alg».proof.Proof.LibPlainDot
import proofs.«101195_j59442347377119_1_alg».proof.Proof.LibRowReduceProducts
import Idealize.ShloMosaic.Lib.Pipeline.Value
import Idealize.ShloMosaic.Lib.ValueIdx

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## Entries of the two products -/

/-- Entry (p, q) of what the body stores: row p of its block of features against column q of the weights. -/
theorem payload_entry (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  refine (Cert.LibRowReduceProducts.matmulNN dot_S5000x128_S128x128_S5000x128_1_0_0_1_n_n rfl rfl rfl rfl rfl rfl none _ _ p q).trans ?_
  exact Finset.sum_congr rfl fun k _ =>
    congrArg (fun z : Vec Ideal S5000x128 .f32 => z (ix2 p k) * x1 (ix2 k q)) (shapeCast_self x0 _)

variable [Cert.ReferenceIdeal.Facts]

/-- Entry (r, q) of the whole product: row r of the features against column q of the weights. -/
theorem product_entry (A : FVec Ideal Cert.ReferenceIdeal.S50000x128 .f32) (W : FVec Ideal Cert.ReferenceIdeal.S128x128 .f32)
    (r : Fin 50000) (q : Fin 128) :
    Cert.Stages.linear128 A W (ix2 r q) = ∑ k : Fin 128, A (ix2 r k) * W (ix2 k q) := by
  unfold Cert.Stages.linear128
  exact Cert.LibPlainDot.dotGeneral_plain none .single A W r q

/-- When row p of a block is row r of the feature array and the block's weights are the weights, entry (p, q) of the
    block's product is entry (r, q) of the whole product. -/
theorem block_entry (A : FVec Ideal Cert.ReferenceIdeal.S50000x128 .f32) (W : FVec Ideal Cert.ReferenceIdeal.S128x128 .f32)
    (x0 : Vec Ideal S5000x128 .f32) (x1 : Vec Ideal S128x128 .f32) (p : Fin 5000) (q : Fin 128) (r : Fin 50000)
    (h0 : ∀ k : Fin 128, x0 (ix2 p k) = A (ix2 r k)) (h1 : ∀ k : Fin 128, x1 (ix2 k q) = W (ix2 k q)) :
    k2_pay1 x0 x1 (ix2 p q) = Cert.Stages.linear128 A W (ix2 r q) := by
  refine (payload_entry x0 x1 p q).trans ?_
  refine Eq.trans ?_ (product_entry A W r q).symm
  exact Finset.sum_congr rfl fun k _ => by rw [h0 k, h1 k]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: at point t the feature window and the result window sit at block row t, block
    column 0; the weight window stays at block (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed_eq (c : Dev nD) (t : Fin cfg2.N) :
    (dat2 (F := Ideal) V c).flushed 2 t = ((cfg2.win 2).blk t).view.read (Elt Ideal)
      (Cert.Stages.linear128 (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨e00, e01, e10, e11, e20, e21⟩ := index_facts t
  have ht : t.val < 10 := lt_of_lt_of_eq t.isLt N_2
  funext j
  show k2_pay1 (iblk2 V c 0 t) (iblk2 V c 1 t) j
    = Cert.Stages.linear128 (V c (Pipeline.arrRef spec2 0)) (V c (Pipeline.arrRef spec2 1)) (((cfg2.win 2).blk t).view.emb j)
  obtain ⟨p, q, rfl⟩ : ∃ (p : Fin 5000) (q : Fin 128), j = ix2 p q := ⟨j 0, j 1, eq_ix2 j⟩
  have hp : p.val < 5000 := p.isLt
  have hemb : ((cfg2.win 2).blk t).view.emb (ix2 p q) = ix2 (⟨t.val * 5000 + p.val, by omega⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  rw [hemb]
  refine block_entry _ _ _ _ p q _ (fun k => ?_) (fun k => ?_)
  · show V c (Pipeline.arrRef spec2 0) (((cfg2.win 0).blk t).view.emb (ix2 p k)) = _
    refine congrArg (V c (Pipeline.arrRef spec2 0)) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c (Pipeline.arrRef spec2 1) (((cfg2.win 1).blk t).view.emb (ix2 k q)) = _
    refine congrArg (V c (Pipeline.arrRef spec2 1)) (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega

/-- An index of the result array is in point t's block iff each coordinate is in the block's range on its axis. -/
theorem mem_block (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v77).slice (win2_2.rect t)).set ↔ _
  rw [View.set_slice_whole, Rect.mem_set_unit]
  exact Iff.rfl

/-- Every index of the result array is in the block of the point its row divided by 5000 names. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : (i 0).val / 5000 < cfg2.N := lt_of_lt_of_eq (by omega : (i 0).val / 5000 < 10) N_2.symm
  obtain ⟨-, -, -, -, e20, e21⟩ := index_facts ⟨(i 0).val / 5000, hN⟩
  have e20' : win2_2.index ⟨(i 0).val / 5000, hN⟩ (0 : Fin 2) = (i 0).val / 5000 := e20
  refine ⟨⟨(i 0).val / 5000, hN⟩, flush2_2 _, ?_⟩
  rw [mem_block]
  intro a
  match a with
  | ⟨0, _⟩ =>
    show win2_2.index ⟨(i 0).val / 5000, hN⟩ (0 : Fin 2) * 5000 ≤ (i 0).val
      ∧ (i 0).val < win2_2.index ⟨(i 0).val / 5000, hN⟩ (0 : Fin 2) * 5000 + 5000
    omega
  | ⟨1, _⟩ =>
    show win2_2.index ⟨(i 0).val / 5000, hN⟩ (1 : Fin 2) * 128 ≤ (i 1).val
      ∧ (i 1).val < win2_2.index ⟨(i 0).val / 5000, hN⟩ (1 : Fin 2) * 128 + 128
    omega

/-- After the region the result array is the product of the feature array by the weights, as the region found them. -/
theorem value (c : Dev nD) :
    (dat2 (F := Ideal) V c).arrAt 2 cfg2.N
      = Cert.Stages.linear128 (V c (Pipeline.arrRef spec2 0)) (V c (Pipeline.arrRef spec2 1)) :=
  (dat2 V c).arrAt_eq_of_cover 2 _ (fun t _ => flushed_eq V c t) covered

end Cert.KernelIdeal.Region2

end
-- ==== Proof.Region3.lean ====
/-
  The fourth region: the weighted combination, block by block.

  The region walks the 50000 node rows in ten blocks of 5000 rows. At block k it reads rows 5000·k … 5000·k + 4999
  of two [50000, 128] inputs h and a and the whole [1, 128] bias row, and writes the same rows of the output:

      out (r, q) = c₁ · h (r, q) + c₂ · (a (r, q) + bias (0, q)),

  where c₁ and c₂ are the numbers the two constant words denote (the words are never evaluated: the same word stands
  on both sides). The whole-array function `Cert.Stages.combine` is the same expression at every (r, q) of the
  [50000, 128] array, so what each block writes is that block of `combine` of the three input arrays, and since the
  ten blocks cover every row the output array ends as `combine` of the inputs.
-/
import proofs.«101195_j59442347377119_1_alg».proof.Proof.Gen.KernelIdeal.Frame
import proofs.«101195_j59442347377119_1_alg».proof.Proof.Stages
import Idealize.ShloMosaic.Lib.Pipeline.Value
import Idealize.ShloMosaic.Lib.ValueIdx

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts]

/-- The offset (0, 0), written as the constant-zero function. -/
theorem zeros2 : (![0, 0] : Fin 2 → Nat) = fun _ => 0 := funext fun a => by fin_cases a <;> rfl

/-! ## One entry of a block -/

/-- The [1, 128] bias row repeated down the 5000 rows of a block: entry (p, q) is the row's entry (0, q). -/
theorem bias_block_apply (b : Vec Ideal S1x128 .f32) (p : Fin 5000) (q : Fin 128) :
    broadcastTo S5000x128 b broadcasts_S1x128_S5000x128 (ix2 p q) = b (ix2 (0 : Fin 1) q) := by
  refine broadcastTo_apply b _ (ix2 p q) (ix2 (0 : Fin 1) q) fun a => ?_
  match a with
  | ⟨0, _⟩ => rfl
  | ⟨1, _⟩ => rfl

/-- Entry (p, q) of what the body stores: c₁ · h (p, q) + c₂ · (a (p, q) + bias (0, q)). The casts to the same shape
    change nothing; each splat constant reads the number of its word everywhere. -/
theorem payload_apply (h a : Vec Ideal S5000x128 .f32) (b : Vec Ideal S1x128 .f32) (p : Fin 5000) (q : Fin 128) :
    k3_pay1 (F := Ideal) h a b (ix2 p q)
      = Ideal.ofBits .f32 0x3DCCCCCD#32 * h (ix2 p q)
        + Ideal.ofBits .f32 0x3F800000#32 * (a (ix2 p q) + b (ix2 (0 : Fin 1) q)) := by
  unfold k3_pay1
  show Ideal.ofBits .f32 0x3DCCCCCD#32 * shapeCast S5000x128 h shapeCasts_S5000x128_S5000x128 (ix2 p q)
      + Ideal.ofBits .f32 0x3F800000#32 * (shapeCast S5000x128 a shapeCasts_S5000x128_S5000x128 (ix2 p q)
        + broadcastTo S5000x128 (shapeCast S1x128 b shapeCasts_S1x128_S1x128) broadcasts_S1x128_S5000x128 (ix2 p q)) = _
  rw [shapeCast_self, shapeCast_self, shapeCast_self, bias_block_apply]

/-! ## One entry of the whole array -/

/-- The [1, 128] bias row repeated down all 50000 rows: entry (r, q) is the row's entry (0, q). -/
theorem bias_array_apply (B : FVec Ideal Cert.ReferenceIdeal.S1x128 .f32) (r : Fin 50000) (q : Fin 128) :
    broadcastInDim Cert.ReferenceIdeal.S50000x128 ![0, 1] Cert.ReferenceIdeal.Facts₀.bcast_S1x128_S50000x128_0_1 B (ix2 r q)
      = B (ix2 (0 : Fin 1) q) := by
  refine broadcastInDim_apply _ _ B (ix2 r q) (ix2 (0 : Fin 1) q) fun a => ?_
  match a with
  | ⟨0, _⟩ => rfl
  | ⟨1, _⟩ => rfl

/-- Entry (r, q) of `combine H A B`: c₁ · H (r, q) + c₂ · (A (r, q) + B (0, q)) (each scalar constant spread over
    the array reads the number of its word at every entry). -/
theorem stage_apply (H A : FVec Ideal Cert.ReferenceIdeal.S50000x128 .f32) (B : FVec Ideal Cert.ReferenceIdeal.S1x128 .f32)
    (r : Fin 50000) (q : Fin 128) :
    Cert.Stages.combine H A B (ix2 r q)
      = Ideal.ofBits .f32 0x3DCCCCCD#32 * H (ix2 r q)
        + Ideal.ofBits .f32 0x3F800000#32 * (A (ix2 r q) + B (ix2 (0 : Fin 1) q)) := by
  unfold Cert.Stages.combine
  show Ideal.ofBits .f32 0x3DCCCCCD#32 * H (ix2 r q)
      + Ideal.ofBits .f32 0x3F800000#32 * (A (ix2 r q) + broadcastInDim Cert.ReferenceIdeal.S50000x128 ![0, 1]
        Cert.ReferenceIdeal.Facts₀.bcast_S1x128_S50000x128_0_1 B (ix2 r q)) = _
  rw [bias_array_apply]

/-- A block entry against an array entry. When the blocks h and a hold at j what the arrays H and A hold at i, the two
    indices have the same column, and the block's bias row is the array's, the stored entry at j is `combine H A B` at i. -/
theorem block_apply (H A : FVec Ideal Cert.ReferenceIdeal.S50000x128 .f32) (B : FVec Ideal Cert.ReferenceIdeal.S1x128 .f32)
    (h a : Vec Ideal S5000x128 .f32) (b : Vec Ideal S1x128 .f32)
    (i : Cert.ReferenceIdeal.S50000x128.Idx) (j : S5000x128.Idx)
    (hcol : (i 1).val = (j 1).val) (hh : h j = H i) (ha : a j = A i)
    (hb : ∀ q : Fin 128, b (ix2 (0 : Fin 1) q) = B (ix2 (0 : Fin 1) q)) :
    k3_pay1 (F := Ideal) h a b j = Cert.Stages.combine H A B i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext hcol
  rw [payload_apply, stage_apply, hh, ha, hb]

/-! ## The blocks -/

/-- Where the blocks sit, decided over the ten grid points: at point t the two inputs and the output are at block
    row t, block column 0; the bias row stays at block (0, 0). -/
theorem index_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of `combine` of the three input arrays: entry (p, q) of the block is array
    entry (5000·t + p, q), where each input block holds its array's entry and the bias block is the whole bias row. -/
theorem flushed_eq (V : (c : Dev nD) → (b : Ref sig .tc) → Buf (Elt Ideal) ((c : Thread nD τ).loc b)) (c : Dev nD)
    (t : Fin cfg3.N) :
    (dat3 (F := Ideal) V c).flushed 3 t = ((cfg3.win 3).blk t).view.read (Elt Ideal)
      (Cert.Stages.combine (V c (Pipeline.arrRef spec3 0)) (V c (Pipeline.arrRef spec3 1))
        (V c (Pipeline.arrRef spec3 2))) := by
  show (cfg3.win 3).cut (grid3.coords t) ((dat3 V c).after 3 t) = _
  rw [after3_3]
  unfold out3_3
  rw [View.canon_unit_zero zeros2]
  simp only [View.ld_unit_zero (S := S5000x128) zeros2, View.ld_unit_zero (S := S1x128) zeros2]
  obtain ⟨e00, e01, e10, e11, e20, e21, e30, e31⟩ := index_facts t
  funext j
  show k3_pay1 (iblk3 V c 0 t) (iblk3 V c 1 t) (iblk3 V c 2 t) j
    = Cert.Stages.combine (V c (Pipeline.arrRef spec3 0)) (V c (Pipeline.arrRef spec3 1))
        (V c (Pipeline.arrRef spec3 2)) (((cfg3.win 3).blk t).view.emb j)
  refine block_apply _ _ _ _ _ _ _ j ?_ ?_ ?_ ?_
  · show win3_3.index t (1 : Fin 2) * 128 + 1 * (j 1).val = (j 1).val
    omega
  · show V c (Pipeline.arrRef spec3 0) (((cfg3.win 0).blk t).view.emb j)
      = V c (Pipeline.arrRef spec3 0) (((cfg3.win 3).blk t).view.emb j)
    refine congrArg _ (funext fun a => Fin.ext ?_)
    match a with
    | ⟨0, _⟩ =>
      show win3_0.index t (0 : Fin 2) * 5000 + 1 * (j 0).val = win3_3.index t (0 : Fin 2) * 5000 + 1 * (j 0).val
      omega
    | ⟨1, _⟩ =>
      show win3_0.index t (1 : Fin 2) * 128 + 1 * (j 1).val = win3_3.index t (1 : Fin 2) * 128 + 1 * (j 1).val
      omega
  · show V c (Pipeline.arrRef spec3 1) (((cfg3.win 1).blk t).view.emb j)
      = V c (Pipeline.arrRef spec3 1) (((cfg3.win 3).blk t).view.emb j)
    refine congrArg _ (funext fun a => Fin.ext ?_)
    match a with
    | ⟨0, _⟩ =>
      show win3_1.index t (0 : Fin 2) * 5000 + 1 * (j 0).val = win3_3.index t (0 : Fin 2) * 5000 + 1 * (j 0).val
      omega
    | ⟨1, _⟩ =>
      show win3_1.index t (1 : Fin 2) * 128 + 1 * (j 1).val = win3_3.index t (1 : Fin 2) * 128 + 1 * (j 1).val
      omega
  · intro q
    show V c (Pipeline.arrRef spec3 2) (((cfg3.win 2).blk t).view.emb (ix2 (0 : Fin 1) q))
      = V c (Pipeline.arrRef spec3 2) (ix2 (0 : Fin 1) q)
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega

/-! ## From the blocks to the array -/

/-- An array index is in point t's output block exactly when each coordinate is in the block's range on its axis. -/
theorem mem_block (t : Fin cfg3.N) (i : Cert.ReferenceIdeal.S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v92).slice (win3_3.rect t)).set ↔ _
  rw [View.set_slice_whole, Rect.mem_set_unit]
  exact Iff.rfl

/-- Every array index is in some point's output block: row r is in the block of point r / 5000. -/
theorem covered (i : Cert.ReferenceIdeal.S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  let t : Fin cfg3.N := ⟨(i 0).val / 5000, by omega⟩
  obtain ⟨e00, e01, e10, e11, e20, e21, e30, e31⟩ := index_facts t
  have ht : t.val = (i 0).val / 5000 := rfl
  refine ⟨t, flush3_3 t, ?_⟩
  rw [mem_block]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 128 ≤ (i 1).val ∧ (i 1).val < win3_3.index t (1 : Fin 2) * 128 + 128
    omega

/-- The output array after the region: `combine` of the two input arrays and the bias row as the region finds them. -/
theorem value (V : (c : Dev nD) → (b : Ref sig .tc) → Buf (Elt Ideal) ((c : Thread nD τ).loc b)) (c : Dev nD) :
    (dat3 (F := Ideal) V c).arrAt 3 cfg3.N
      = Cert.Stages.combine (V c (Pipeline.arrRef spec3 0)) (V c (Pipeline.arrRef spec3 1))
          (V c (Pipeline.arrRef spec3 2)) :=
  (dat3 (F := Ideal) V c).arrAt_eq_of_cover 3 _ (fun t _ => flushed_eq V c t) covered

end Cert.KernelIdeal.Region3

end
-- ==== Proof.Region4.lean ====
/-
  Region 4: the node features times a weight matrix, computed one block of 5000 node rows at a time.

  The 50000 node rows are cut into 10 blocks of 5000 consecutive rows; grid point t holds block t of the features,
  the whole weight matrix, and writes block t of the result. Entry (p, q) of what point t writes is the sum over k
  of (row p of block t of the features) at k times the weights at (k, q): an entry of a matrix product depends on the
  left factor only through its own row, so this is entry (5000 t + p, q) of the product of the WHOLE feature array
  by the weights. The 10 blocks tile the rows (row r lies in block r / 5000), so after the last point the array holds
  the whole product. At the ideal values the narrowing of both factors to a shorter float format changes nothing, and recasting the
  block of features to the shape it already has is the identity.
-/
import proofs.«101195_j59442347377119_1_alg».proof.Proof.Gen.KernelIdeal.Frame
import proofs.«101195_j59442347377119_1_alg».proof.Proof.Stages
import proofs.«101195_j59442347377119_1_alg».proof.Proof.LibPlainDot
import proofs.«101195_j59442347377119_1_alg».proof.Proof.LibRowReduceProducts
import Idealize.ShloMosaic.Lib.Pipeline.Value
import Idealize.ShloMosaic.Lib.ValueIdx

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## Entries of the two products -/

/-- Entry (p, q) of what the body stores: row p of its block of features against column q of the weights. -/
theorem payload_entry (x0 : Vec Ideal S5000x128 .f32) (x1 : Vec Ideal S128x40 .f32) (p : Fin 5000) (q : Fin 40) :
    k4_pay1 x0 x1 (ix2 p q) = ∑ k : Fin 128, x0 (ix2 p k) * x1 (ix2 k q) := by
  unfold k4_pay1
  refine (Cert.LibRowReduceProducts.matmulNN dot_S5000x128_S128x40_S5000x40_1_0_0_1_n_n rfl rfl rfl rfl rfl rfl none _ _ p q).trans ?_
  exact Finset.sum_congr rfl fun k _ =>
    congrArg (fun z : Vec Ideal S5000x128 .f32 => z (ix2 p k) * x1 (ix2 k q)) (shapeCast_self x0 _)

variable [Cert.ReferenceIdeal.Facts]

/-- Entry (r, q) of the whole product: row r of the features against column q of the weights. -/
theorem product_entry (A : FVec Ideal Cert.ReferenceIdeal.S50000x128 .f32) (W : FVec Ideal Cert.ReferenceIdeal.S128x40 .f32)
    (r : Fin 50000) (q : Fin 40) :
    Cert.Stages.linear40 A W (ix2 r q) = ∑ k : Fin 128, A (ix2 r k) * W (ix2 k q) := by
  unfold Cert.Stages.linear40
  exact Cert.LibPlainDot.dotGeneral_plain none .single A W r q

/-- When row p of a block is row r of the feature array and the block's weights are the weights, entry (p, q) of the
    block's product is entry (r, q) of the whole product. -/
theorem block_entry (A : FVec Ideal Cert.ReferenceIdeal.S50000x128 .f32) (W : FVec Ideal Cert.ReferenceIdeal.S128x40 .f32)
    (x0 : Vec Ideal S5000x128 .f32) (x1 : Vec Ideal S128x40 .f32) (p : Fin 5000) (q : Fin 40) (r : Fin 50000)
    (h0 : ∀ k : Fin 128, x0 (ix2 p k) = A (ix2 r k)) (h1 : ∀ k : Fin 128, x1 (ix2 k q) = W (ix2 k q)) :
    k4_pay1 x0 x1 (ix2 p q) = Cert.Stages.linear40 A W (ix2 r q) := by
  refine (payload_entry x0 x1 p q).trans ?_
  refine Eq.trans ?_ (product_entry A W r q).symm
  exact Finset.sum_congr rfl fun k _ => by rw [h0 k, h1 k]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: at point t the feature window and the result window sit at block row t, block
    column 0; the weight window stays at block (0, 0). -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product. -/
theorem flushed_eq (c : Dev nD) (t : Fin cfg4.N) :
    (dat4 (F := Ideal) V c).flushed 2 t = ((cfg4.win 2).blk t).view.read (Elt Ideal)
      (Cert.Stages.linear40 (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x40) zero_offsets]
  obtain ⟨e00, e01, e10, e11, e20, e21⟩ := index_facts t
  have ht : t.val < 10 := lt_of_lt_of_eq t.isLt N_4
  funext j
  show k4_pay1 (iblk4 V c 0 t) (iblk4 V c 1 t) j
    = Cert.Stages.linear40 (V c (Pipeline.arrRef spec4 0)) (V c (Pipeline.arrRef spec4 1)) (((cfg4.win 2).blk t).view.emb j)
  obtain ⟨p, q, rfl⟩ : ∃ (p : Fin 5000) (q : Fin 40), j = ix2 p q := ⟨j 0, j 1, eq_ix2 j⟩
  have hp : p.val < 5000 := p.isLt
  have hemb : ((cfg4.win 2).blk t).view.emb (ix2 p q) = ix2 (⟨t.val * 5000 + p.val, by omega⟩ : Fin 50000) q := by
    funext a; apply Fin.ext
    match a with
    | ⟨0, _⟩ => show win4_2.index t (0 : Fin 2) * 5000 + 1 * p.val = t.val * 5000 + p.val; omega
    | ⟨1, _⟩ => show win4_2.index t (1 : Fin 2) * 40 + 1 * q.val = q.val; omega
  rw [hemb]
  refine block_entry _ _ _ _ p q _ (fun k => ?_) (fun k => ?_)
  · show V c (Pipeline.arrRef spec4 0) (((cfg4.win 0).blk t).view.emb (ix2 p k)) = _
    refine congrArg (V c (Pipeline.arrRef spec4 0)) (funext fun a => Fin.ext ?_)
    match a with
    | ⟨0, _⟩ => show win4_0.index t (0 : Fin 2) * 5000 + 1 * p.val = t.val * 5000 + p.val; omega
    | ⟨1, _⟩ => show win4_0.index t (1 : Fin 2) * 128 + 1 * k.val = k.val; omega
  · show V c (Pipeline.arrRef spec4 1) (((cfg4.win 1).blk t).view.emb (ix2 k q)) = _
    refine congrArg (V c (Pipeline.arrRef spec4 1)) (funext fun a => Fin.ext ?_)
    match a with
    | ⟨0, _⟩ => show win4_1.index t (0 : Fin 2) * 128 + 1 * k.val = k.val; omega
    | ⟨1, _⟩ => show win4_1.index t (1 : Fin 2) * 40 + 1 * q.val = q.val; omega

/-- An index of the result array is in point t's block iff each coordinate is in the block's range on its axis. -/
theorem mem_block (t : Fin cfg4.N) (i : S50000x40.Idx) :
    i ∈ ((cfg4.win 2).blk t).view.set ↔ ∀ a : Fin 2, win4_2.index t a * S5000x40.size a ≤ (i a).val
      ∧ (i a).val < win4_2.index t a * S5000x40.size a + S5000x40.size a := by
  show i ∈ ((View.whole main_v93).slice (win4_2.rect t)).set ↔ _
  rw [View.set_slice_whole, Rect.mem_set_unit]
  exact Iff.rfl

/-- Every index of the result array is in the block of the point its row divided by 5000 names. -/
theorem covered (i : S50000x40.Idx) :
    ∃ t : Fin cfg4.N, (cfg4.win 2).flush t = true ∧ i ∈ ((cfg4.win 2).blk t).view.set := by
  have hi0 : (i 0).val < 50000 := (i 0).isLt
  have hi1 : (i 1).val < 40 := (i 1).isLt
  have hN : (i 0).val / 5000 < cfg4.N := lt_of_lt_of_eq (by omega : (i 0).val / 5000 < 10) N_4.symm
  obtain ⟨-, -, -, -, e20, e21⟩ := index_facts ⟨(i 0).val / 5000, hN⟩
  have e20' : win4_2.index ⟨(i 0).val / 5000, hN⟩ (0 : Fin 2) = (i 0).val / 5000 := e20
  refine ⟨⟨(i 0).val / 5000, hN⟩, flush4_2 _, ?_⟩
  rw [mem_block]
  intro a
  match a with
  | ⟨0, _⟩ =>
    show win4_2.index ⟨(i 0).val / 5000, hN⟩ (0 : Fin 2) * 5000 ≤ (i 0).val
      ∧ (i 0).val < win4_2.index ⟨(i 0).val / 5000, hN⟩ (0 : Fin 2) * 5000 + 5000
    omega
  | ⟨1, _⟩ =>
    show win4_2.index ⟨(i 0).val / 5000, hN⟩ (1 : Fin 2) * 40 ≤ (i 1).val
      ∧ (i 1).val < win4_2.index ⟨(i 0).val / 5000, hN⟩ (1 : Fin 2) * 40 + 40
    omega

/-- After the region the result array is the product of the feature array by the weights, as the region found them. -/
theorem value (c : Dev nD) :
    (dat4 (F := Ideal) V c).arrAt 2 cfg4.N
      = Cert.Stages.linear40 (V c (Pipeline.arrRef spec4 0)) (V c (Pipeline.arrRef spec4 1)) :=
  (dat4 V c).arrAt_eq_of_cover 2 _ (fun t _ => flushed_eq V c t) covered

end Cert.KernelIdeal.Region4

end
-- ==== Proof.LibKeepdimsCols.lean ====
/-
  Column vectors read at an index.

  A row reduction with `keepdims` leaves an `[a]` array that is then viewed as the column `[a, 1]` and broadcast along
  the rows of an `[a, b]` array. Read at an index:

  * an `[a]` array cast to `[a, 1]` reads, at `(p, u)`, the operand at `p` (`shapeCast_a_a1_apply`);
  * an `[a, 1]` column broadcast to `[a, b]` reads, at `(p, c)`, the column at `(p, 0)` (`broadcastTo_a1_ab_apply`).

  Both are generic in the extents and in the element type.
-/
import Idealize.ShloMosaic.Lib.Pipeline.Value
import Idealize.ShloMosaic.Lib.ValueIdx

namespace Cert.LibKeepdimsCols

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCols
-- ==== Proof.LibHostRowMax.lean ====
/-
  The host's maximum over one axis, read at the ideal instance.

  A reference that normalises a row of scores first takes the row's largest entry with a host reduction whose
  body is the maximum and whose initial value is the f32 word of -∞.  At the ideal instance that word is the
  bottom of the extended reals, the body is the lattice's maximum, and the reduction over ONE axis, read at a
  reduced index j, is the supremum over that axis's coordinates k of the operand at "j with k put back"
  (Shape.Reduces.lift).  Stated for any shapes; a certificate instantiates it at its literal ones and rewrites
  the lifted index into coordinates.
-/
import Idealize.ShloMosaic.PureOps.Ideal.Laws
import Idealize.ShloMosaic.PureOps.Reduce

noncomputable section

open Idealize.ShloMosaic

namespace Cert.Lib.HostRowMax

/-- The f32 word 0xFF800000 denotes -∞, the bottom of the extended reals. -/
theorem ofBits_negInf : Ideal.ofBits .f32 0xFF800000#32 = (⊥ : EReal) := by
  simp [Ideal.ofBits, Ideal.ieee]

/-- Folding the maximum from the bottom over a finite set is the supremum over it. -/
theorem fold_max_bot {β : Type*} (T : Finset β) (f : β → EReal) : T.fold max (⊥ : EReal) f = T.sup f := by
  classical
  induction T using Finset.induction_on with
  | empty => simp
  | insert b T hb ih => rw [Finset.fold_insert hb, Finset.sup_insert, ih]

/-- From -∞ the host's reduction with a maximum body over one axis, at the reduced index j, is the supremum over
    that axis of the operand. -/
theorem hostReduce_max {s t u : Shape} {a : Fin s.rank} (x : FVec Ideal s .f32) (h' : s.ReducesTo [a] t)
    (h : s.Reduces [a] t) (hu : 0 < u.numel) (j : t.Idx) :
    Host.reduce FloatOps.maximumf x (constant u .f32 0xFF800000#32) h' hu j
      = Finset.univ.sup fun k : Fin (s.size a) => x (h.lift j k) := by
  rw [Host.reduce_eq_fold_single FloatOps.maximumf x _ h' h hu]
  have hi : (constant (F := Ideal) u .f32 0xFF800000#32) (Shape.Idx.first hu) = (⊥ : EReal) := ofBits_negInf
  rw [hi]
  exact fold_max_bot Finset.univ (x ∘ h.lift j)

end Cert.Lib.HostRowMax

end
-- ==== Proof.Region5.lean ====
/-
  The value of the last dense stage of the network: the row-wise log-softmax of the scores plus a bias row.

  The stage works on 10 blocks of 5000 whole rows of a [50000, 40] array; the [1, 40] bias row is the same block at
  every grid point.  Entry (r, q) of block t is entry (R, q) of the array with R = 5000 * t + r.  With
  y (R, k) = x (R, k) + b (k), both the block computation and the whole-array one give, at (R, q),

      (y (R, q) - M) - log (sum over k of exp (y (R, k) - M)),     M = the largest of y (R, 0), ..., y (R, 39),

  and since M and the sum are taken along the row only, row r of the block and row R of the array give the same
  number: `rowLogSoftmax` below is that number as a function of the row and the column.

  * `payload_apply`   — the block computation read at an entry of the block;
  * `reference_apply` — the whole-array computation read at an entry of the array;
  * `flushed_eq`      — what a grid point writes back is its block of the whole-array function `wholeArray`;
  * `value`           — the blocks cover the array, so the array ends holding the whole-array computation.
-/
import proofs.«101195_j59442347377119_1_alg».proof.Proof.Gen.KernelIdeal.Frame
import proofs.«101195_j59442347377119_1_alg».proof.Proof.Stages
import proofs.«101195_j59442347377119_1_alg».proof.Proof.LibRowReduceProducts
import proofs.«101195_j59442347377119_1_alg».proof.Proof.LibKeepdimsCols
import proofs.«101195_j59442347377119_1_alg».proof.Proof.LibHostRowMax
import Idealize.ShloMosaic.Lib.Pipeline.Value
import Idealize.ShloMosaic.Lib.ValueIdx
import Idealize.ShloMosaic.PureOps.Ideal.Laws

noncomputable section

open scoped BigOperators

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)

/-! ## One row -/

/-- The log-softmax of one row `y` of 40 scores at column `q`: the entry minus the row's largest entry, minus the
    logarithm of the sum over the row of the exponentials of the entries minus that largest entry. -/
def rowLogSoftmax (y : Fin 40 → EReal) (q : Fin 40) : EReal :=
  (y q - Finset.univ.sup y) - Ideal.log (∑ k : Fin 40, Ideal.exp (y k - Finset.univ.sup y))

/-- The whole [50000, 40] array as one function of the scores `X` and the bias row `B`: at (R, q) the log-softmax of
    row R of `X` plus `B`, at column q. -/
def wholeArray (X : S50000x40.Idx → EReal) (B : S1x40.Idx → EReal) : S50000x40.Idx → EReal :=
  fun i => rowLogSoftmax (fun k => X (ix2 (i 0) k) + B (ix2 0 k)) (i 1)

/-! ## The block computation at an entry of the block -/

/-- A [1, 40] row spread over the 5000 rows of a block reads, at (p, k), the row's entry k. -/
theorem broadcastTo_1b_ab_apply {α : Type} {a b : ℕ} (v : (⟨2, ![1, b]⟩ : Shape).Idx → α)
    (h : (⟨2, ![1, b]⟩ : Shape).Broadcasts ⟨2, ![a, b]⟩) (p : Fin a) (k : Fin b) :
    broadcastTo ⟨2, ![a, b]⟩ v h (ix2 p k) = v (ix2 (0 : Fin 1) k) := by
  refine broadcastTo_apply v h (ix2 p k) (ix2 (0 : Fin 1) k) fun ax => ?_
  match ax with
  | ⟨0, _⟩ => rfl
  | ⟨1, _⟩ =>
    show k.val = if b = 1 then 0 else k.val
    split
    · have := k.isLt; omega
    · rfl

/-- The block computation once the bias row has been added to every row of the block. -/
def blockLogSoftmax (y : FVec Ideal S5000x40 .f32) : FVec Ideal S5000x40 .f32 :=
  have v6 : FVec Ideal S5000 .f32 := multiReduction .maximumf [1] S5000 y 0xFF800000#32 reduces_S5000x40_S5000 (.inl rfl) rfl
  have v7 : FVec Ideal S5000x1 .f32 := shapeCast S5000x1 v6 shapeCasts_S5000_S5000x1
  have v8 : FVec Ideal S5000x40 .f32 := broadcastTo S5000x40 v7 broadcasts_S5000x1_S5000x40
  have v9 : FVec Ideal S5000x40 .f32 := subf y v8
  have v10 : FVec Ideal S5000x40 .f32 := exp v9
  have v11 : FVec Ideal S5000 .f32 := multiReduction .add [1] S5000 v10 0x00000000#32 reduces_S5000x40_S5000 (.inl rfl) rfl
  have v12 : FVec Ideal S5000x1 .f32 := shapeCast S5000x1 v11 shapeCasts_S5000_S5000x1
  have v13 : FVec Ideal S5000x1 .f32 := log v12
  have v14 : FVec Ideal S5000x40 .f32 := broadcastTo S5000x40 v13 broadcasts_S5000x1_S5000x40
  subf v9 v14

/-- The stored value is the block computation of the scores' block plus the bias row spread over its rows (casts of a
    block to its own shape change nothing). -/
theorem payload_eq_block (x0 : Vec Ideal S5000x40 .f32) (b0 : Vec Ideal S1x40 .f32) :
    k5_pay1 x0 b0 = blockLogSoftmax (addf x0 (broadcastTo S5000x40 b0 broadcasts_S1x40_S5000x40)) := by
  unfold k5_pay1 blockLogSoftmax
  dsimp only
  rw [shapeCast_self, shapeCast_self]

/-- The block computation at entry (p, q) depends on row p of the block only: the row's maximum and the row's sum of
    exponentials are each one number per row, kept as a column and spread back along the row. -/
theorem block_apply (y : FVec Ideal S5000x40 .f32) (p : Fin 5000) (q : Fin 40) :
    blockLogSoftmax y (ix2 p q) = rowLogSoftmax (fun k => y (ix2 p k)) q := by
  unfold blockLogSoftmax
  dsimp only
  have hM : ∀ k : Fin 40, broadcastTo S5000x40 (shapeCast S5000x1
      (multiReduction (F := Ideal) .maximumf [1] S5000 y 0xFF800000#32 reduces_S5000x40_S5000 (.inl rfl) rfl)
      shapeCasts_S5000_S5000x1) broadcasts_S5000x1_S5000x40 (ix2 p k)
        = Finset.univ.sup fun k' : Fin 40 => y (ix2 p k') := fun k =>
    (Cert.LibKeepdimsCols.broadcastTo_a1_ab_apply _ _ p k).trans
      ((Cert.LibKeepdimsCols.shapeCast_a_a1_apply _ _ p 0).trans
        (Cert.LibRowReduceProducts.rowMax_apply y _ _ _ p))
  refine (subf_apply _ _ _).trans ?_
  unfold rowLogSoftmax
  refine congrArg₂ (fun u v : EReal => u - v) ?_ ?_
  · exact (subf_apply _ _ _).trans (congrArg (fun m : EReal => y (ix2 p q) - m) (hM q))
  · refine (Cert.LibKeepdimsCols.broadcastTo_a1_ab_apply _ _ p q).trans ?_
    show Ideal.log (shapeCast S5000x1 _ shapeCasts_S5000_S5000x1 (ix2 p (0 : Fin 1))) = _
    refine congrArg Ideal.log ?_
    refine (Cert.LibKeepdimsCols.shapeCast_a_a1_apply _ _ p 0).trans ?_
    refine (Cert.LibRowReduceProducts.rowSum_apply _ _ _ _ p).trans ?_
    exact Finset.sum_congr rfl fun k _ => congrArg Ideal.exp
      ((subf_apply _ _ _).trans (congrArg (fun m : EReal => y (ix2 p k) - m) (hM k)))

/-- The stored value at an entry of the block: the log-softmax of that row of the scores' block plus the bias row. -/
theorem payload_apply (x0 : Vec Ideal S5000x40 .f32) (b0 : Vec Ideal S1x40 .f32) (j : S5000x40.Idx) :
    k5_pay1 x0 b0 j = rowLogSoftmax (fun k => x0 (ix2 (j 0) k) + b0 (ix2 0 k)) (j 1) := by
  rw [payload_eq_block]
  refine (congrArg (blockLogSoftmax _) (eq_ix2 j)).trans ?_
  refine (block_apply _ (j 0) (j 1)).trans ?_
  exact congrArg (fun y => rowLogSoftmax y (j 1)) (funext fun k =>
    (addf_apply _ _ _).trans (congrArg (fun m : EReal => x0 (ix2 (j 0) k) + m) (broadcastTo_1b_ab_apply b0 _ (j 0) k)))

/-! ## From the blocks to the array -/

/-- The body reads and writes its whole staging buffers: every access starts at the origin. -/
theorem origin : (![0, 0] : Fin 2 → Nat) = fun _ => 0 := funext fun a => by fin_cases a <;> rfl

/-- The block indices of the three windows at grid point `t`: the scores' block and the result's block are block
    (t, 0) of their arrays, the bias row's block is always block (0, 0). -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

section Blocks

variable (V : (c : Dev nD) → (b : Ref sig .tc) → Buf (Elt Ideal) ((c : Thread nD τ).loc b))

/-- What grid point `t` writes back is block `t` of `wholeArray` of the two input arrays: entry (r, q) of the block
    is entry (5000 * t + r, q) of the array, its row is row r of the scores' block, and the bias row's block is the
    bias row. -/
theorem flushed_eq (c : Dev nD) (t : Fin cfg5.N) :
    (dat5 (F := Ideal) V c).flushed 2 t = ((cfg5.win 2).blk t).view.read (Elt Ideal)
      (wholeArray (V c (Pipeline.arrRef spec5 0)) (V c (Pipeline.arrRef spec5 1))) := by
  show (cfg5.win 2).cut (grid5.coords t) ((dat5 V c).after 2 t) = _
  rw [after5_2]
  unfold out5_2
  rw [View.canon_unit_zero origin]
  simp only [View.ld_unit_zero (S := S5000x40) origin, View.ld_unit_zero (S := S1x40) origin]
  obtain ⟨e00, e01, e10, e11, e20, e21⟩ := index_facts t
  funext j
  show k5_pay1 (iblk5 V c 0 t) (iblk5 V c 1 t) j
    = wholeArray (V c (Pipeline.arrRef spec5 0)) (V c (Pipeline.arrRef spec5 1)) (((cfg5.win 2).blk t).view.emb j)
  refine (payload_apply _ _ j).trans ?_
  unfold wholeArray
  have hq : (j 1 : Fin 40) = (((cfg5.win 2).blk t).view.emb j) 1 := Fin.ext (by
    show (j 1).val = win5_2.index t (1 : Fin 2) * 40 + 1 * (j 1).val
    omega)
  have hx : ∀ k : Fin 40, (iblk5 V c 0 t : S5000x40.Idx → EReal) (ix2 (j 0) k)
      = (V c (Pipeline.arrRef spec5 0) : S50000x40.Idx → EReal)
          (ix2 ((((cfg5.win 2).blk t).view.emb j) 0) k) := fun k => by
    unfold iblk5
    rw [View.read_apply]
    refine congrArg (V c (Pipeline.arrRef spec5 0) : S50000x40.Idx → EReal) (funext fun a => Fin.ext ?_)
    match a with
    | ⟨0, _⟩ =>
      show win5_0.index t (0 : Fin 2) * 5000 + 1 * (j 0).val = win5_2.index t (0 : Fin 2) * 5000 + 1 * (j 0).val
      omega
    | ⟨1, _⟩ =>
      show win5_0.index t (1 : Fin 2) * 40 + 1 * k.val = k.val
      omega
  have hb : ∀ k : Fin 40, (iblk5 V c 1 t : S1x40.Idx → EReal) (ix2 0 k)
      = (V c (Pipeline.arrRef spec5 1) : S1x40.Idx → EReal) (ix2 0 k) := fun k => by
    unfold iblk5
    rw [View.read_apply]
    refine congrArg (V c (Pipeline.arrRef spec5 1) : S1x40.Idx → EReal) (funext fun a => Fin.ext ?_)
    match a with
    | ⟨0, _⟩ =>
      show win5_1.index t (0 : Fin 2) * 1 + 1 * 0 = 0
      omega
    | ⟨1, _⟩ =>
      show win5_1.index t (1 : Fin 2) * 40 + 1 * k.val = k.val
      omega
  rw [← hq]
  exact congrArg (fun y => rowLogSoftmax y (j 1)) (funext fun k => by rw [hx k, hb k])

/-- An entry of the array is in point `t`'s block iff each coordinate is in the block's range on its axis. -/
theorem mem_blk (t : Fin cfg5.N) (i : S50000x40.Idx) :
    i ∈ ((cfg5.win 2).blk t).view.set ↔ ∀ a : Fin 2, win5_2.index t a * S5000x40.size a ≤ (i a).val
      ∧ (i a).val < win5_2.index t a * S5000x40.size a + S5000x40.size a := by
  show i ∈ ((View.whole main_v108).slice (win5_2.rect t)).set ↔ _
  rw [View.set_slice_whole, Rect.mem_set_unit]
  exact Iff.rfl

/-- Every entry (R, q) of the array is in the block of the point R / 5000. -/
theorem cover (i : S50000x40.Idx) :
    ∃ t : Fin cfg5.N, (cfg5.win 2).flush t = true ∧ i ∈ ((cfg5.win 2).blk t).view.set := by
  have hi0 : (i 0).val < 50000 := (i 0).isLt
  have hi1 : (i 1).val < 40 := (i 1).isLt
  have hN : cfg5.N = 10 := N_5
  have hlt : (i 0).val / 5000 < cfg5.N := by rw [hN]; omega
  obtain ⟨t, ht⟩ : ∃ t : Fin cfg5.N, t.val = (i 0).val / 5000 := ⟨⟨(i 0).val / 5000, hlt⟩, rfl⟩
  refine ⟨t, flush5_2 t, ?_⟩
  rw [mem_blk]
  obtain ⟨-, -, -, -, e20, e21⟩ := index_facts t
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 40 ≤ (i 1).val ∧ (i 1).val < win5_2.index t (1 : Fin 2) * 40 + 40
    omega

/-- The blocks cover the array, so after the last point the array holds `wholeArray` of the two input arrays. -/
theorem value_wholeArray (c : Dev nD) :
    (dat5 (F := Ideal) V c).arrAt 2 cfg5.N
      = wholeArray (V c (Pipeline.arrRef spec5 0)) (V c (Pipeline.arrRef spec5 1)) :=
  (dat5 V c).arrAt_eq_of_cover 2 _ (fun t _ => flushed_eq V c t) cover

end Blocks

/-! ## The whole-array computation at an entry of the array -/

section Reference

variable [Cert.ReferenceIdeal.Facts]
open Cert.ReferenceIdeal.Facts₀ Cert.ReferenceIdeal.Facts

/-- Removing the column coordinate of a [50000, 40] index leaves a [50000] index. -/
theorem rowsOf : (⟨2, ![50000, 40]⟩ : Shape).Reduces [1] ⟨1, ![50000]⟩ := by decide

/-- A row index with the column k put back is the entry (R, k). -/
theorem lift_row (R : Fin 50000) (k : Fin 40) : rowsOf.lift (ix1 R) k = ix2 R k :=
  funext fun d => Fin.ext (by
    match d with
    | ⟨0, _⟩ => rfl
    | ⟨1, _⟩ => rfl)

/-- A [50000] array made a [50000, 1] column reads, at (R, u), the array at R. -/
theorem column_apply {α : Type} (v : (⟨1, ![50000]⟩ : Shape).Idx → α)
    (h : (⟨1, ![50000]⟩ : Shape).BroadcastsInDim ⟨2, ![50000, 1]⟩ ![0]) (R : Fin 50000) (u : Fin 1) :
    broadcastInDim ⟨2, ![50000, 1]⟩ ![0] h v (ix2 R u) = v (ix1 R) :=
  broadcastInDim_apply ![0] h v (ix2 R u) (ix1 R) fun a => by
    match a with
    | ⟨0, _⟩ => rfl

/-- A [50000, 1] column spread along the rows reads, at (R, k), the column at (R, 0). -/
theorem spread_apply {α : Type} (v : (⟨2, ![50000, 1]⟩ : Shape).Idx → α)
    (h : (⟨2, ![50000, 1]⟩ : Shape).BroadcastsInDim ⟨2, ![50000, 40]⟩ ![0, 1]) (R : Fin 50000) (k : Fin 40) :
    broadcastInDim ⟨2, ![50000, 40]⟩ ![0, 1] h v (ix2 R k) = v (ix2 R (0 : Fin 1)) :=
  broadcastInDim_apply ![0, 1] h v (ix2 R k) (ix2 R (0 : Fin 1)) fun a => by
    match a with
    | ⟨0, _⟩ => rfl
    | ⟨1, _⟩ => rfl

/-- The [1, 40] bias row spread over the rows reads, at (R, k), the row's entry k. -/
theorem biasRow_apply {α : Type} (v : (⟨2, ![1, 40]⟩ : Shape).Idx → α)
    (h : (⟨2, ![1, 40]⟩ : Shape).BroadcastsInDim ⟨2, ![50000, 40]⟩ ![0, 1]) (R : Fin 50000) (k : Fin 40) :
    broadcastInDim ⟨2, ![50000, 40]⟩ ![0, 1] h v (ix2 R k) = v (ix2 (0 : Fin 1) k) :=
  broadcastInDim_apply ![0, 1] h v (ix2 R k) (ix2 (0 : Fin 1) k) fun a => by
    match a with
    | ⟨0, _⟩ => rfl
    | ⟨1, _⟩ => rfl

/-- The host's logarithm, exponential and sum along an axis are, at the extended reals, the functions themselves. -/
theorem hostLog_apply {s : Shape} (x : FVec Ideal s .f32) (i : s.Idx) : Host.log x i = Ideal.log (x i) := rfl

theorem hostExp_apply {s : Shape} (x : FVec Ideal s .f32) (i : s.Idx) : Host.exp x i = Ideal.exp (x i) := rfl

theorem hostSum_apply {s t u : Shape} {axes : List (Fin s.rank)} (x : FVec Ideal s .f32) (b : BitVec 32)
    (h : s.ReducesTo axes t) (hu : 0 < u.numel) (j : t.Idx) :
    Host.reduceAdd x (constant (F := Ideal) u .f32 b) h hu j = Ideal.hostReduceAdd h x (Ideal.ofBits .f32 b) j := rfl

/-- Every row minus its largest entry, read at an entry. -/
theorem shifted_apply (y : FVec Ideal Cert.ReferenceIdeal.S50000x40 .f32) (R : Fin 50000) (k : Fin 40) :
    Cert.Stages.shifted y (ix2 R k) = y (ix2 R k) - Finset.univ.sup fun k' : Fin 40 => y (ix2 R k') := by
  unfold Cert.Stages.shifted
  refine (subf_apply _ _ _).trans (congrArg (fun m : EReal => y (ix2 R k) - m) ?_)
  refine (spread_apply _ _ R k).trans ?_
  refine (column_apply _ _ R 0).trans ?_
  refine (maximumf_apply _ _ _).trans ?_
  show max (Ideal.ofBits .f32 0xFF800000#32) _ = _
  rw [Cert.LibPayOps.ofBits_f32_neg_inf, max_eq_right bot_le]
  refine (Cert.Lib.HostRowMax.hostReduce_max y _ rowsOf _ (ix1 R)).trans ?_
  exact congrArg Finset.univ.sup (funext fun k' => congrArg y (lift_row R k'))

/-- The row-wise log-softmax of the reference read at an entry. -/
theorem logSoftmaxRows_apply (y : FVec Ideal Cert.ReferenceIdeal.S50000x40 .f32) (R : Fin 50000) (q : Fin 40) :
    Cert.Stages.logSoftmaxRows y (ix2 R q) = rowLogSoftmax (fun k => y (ix2 R k)) q := by
  unfold Cert.Stages.logSoftmaxRows
  refine (subf_apply _ _ _).trans ?_
  unfold rowLogSoftmax
  refine congrArg₂ (fun u v : EReal => u - v) (shifted_apply y R q) ?_
  refine (spread_apply _ _ R q).trans ?_
  refine (hostLog_apply _ _).trans (congrArg Ideal.log ?_)
  refine (column_apply _ _ R 0).trans ?_
  refine (hostSum_apply _ _ _ _ _).trans ?_
  refine (Ideal.hostReduceAdd_single _ rowsOf _ _ _).trans ?_
  rw [Ideal.ofBits_zero_f32, zero_add]
  refine Finset.sum_congr rfl fun k _ => ?_
  exact (congrArg (Host.exp (Cert.Stages.shifted y)) (lift_row R k)).trans
    ((hostExp_apply _ _).trans (congrArg Ideal.exp (shifted_apply y R k)))

/-- The whole-array computation read at an entry. -/
theorem reference_apply (X : FVec Ideal Cert.ReferenceIdeal.S50000x40 .f32) (B : FVec Ideal Cert.ReferenceIdeal.S1x40 .f32)
    (R : Fin 50000) (q : Fin 40) :
    Cert.Stages.biasLogSoftmax X B (ix2 R q) = rowLogSoftmax (fun k => X (ix2 R k) + B (ix2 0 k)) q := by
  unfold Cert.Stages.biasLogSoftmax
  refine (logSoftmaxRows_apply _ R q).trans ?_
  exact congrArg (fun y => rowLogSoftmax y q) (funext fun k =>
    (addf_apply _ _ _).trans (congrArg (fun m : EReal => X (ix2 R k) + m) (biasRow_apply B _ R k)))

end Reference

/-! ## The value of the region -/

section Value

variable [Cert.ReferenceIdeal.Facts]

/-- The result array after the region is the reference's bias + log-softmax stage of the two input arrays: both are,
    entry by entry, the log-softmax of the entry's row of the scores plus the bias row. -/
theorem value (V : (c : Dev nD) → (b : Ref sig .tc) → Buf (Elt Ideal) ((c : Thread nD τ).loc b)) (c : Dev nD) :
    (dat5 (F := Ideal) V c).arrAt 2 cfg5.N
      = Cert.Stages.biasLogSoftmax (V c (Pipeline.arrRef spec5 0)) (V c (Pipeline.arrRef spec5 1)) := by
  refine (value_wholeArray V c).trans (funext fun (i : S50000x40.Idx) => ?_)
  unfold wholeArray
  refine (reference_apply _ _ (i 0) (i 1)).symm.trans ?_
  exact congrArg (Cert.Stages.biasLogSoftmax (V c (Pipeline.arrRef spec5 0)) (V c (Pipeline.arrRef spec5 1)))
    (eq_ix2 i).symm

end Value

end Cert.KernelIdeal.Region5

end
-- ==== Proof.KernelTrace.lean ====
/-
  The idealized kernel's result, traced back to the arguments.

  At the last boundary the result buffer holds the sixth region's output array. Going backwards: each region's output
  array is its dense stage (`Cert.Stages`) of the arrays the region finds at its entry (the six region lemmas); each
  buffer a host stretch writes is that stretch's gather / product / scatter-add of buffers written earlier; every other
  buffer is carried unchanged across the boundaries in between (`Keep`); and at the first region's entry the edge lists
  with their self-loops and the two edge normalisations are the leading stretches' terms of the launch memory. Put
  together, the result buffer holds `Cert.Stages.network` of the nine arguments' launch contents — the only point where
  the two programs' texts differ being the bias row, which the kernel reshapes from [n] to [1, n] and the reference
  broadcasts along a new leading axis: the same array.
-/
import proofs.«101195_j59442347377119_1_alg».proof.Proof.KernelKeep
import proofs.«101195_j59442347377119_1_alg».proof.Proof.KernelEntry
import proofs.«101195_j59442347377119_1_alg».proof.Proof.Network
import proofs.«101195_j59442347377119_1_alg».proof.Proof.Region0
import proofs.«101195_j59442347377119_1_alg».proof.Proof.Region1
import proofs.«101195_j59442347377119_1_alg».proof.Proof.Region2
import proofs.«101195_j59442347377119_1_alg».proof.Proof.Region3
import proofs.«101195_j59442347377119_1_alg».proof.Proof.Region4
import proofs.«101195_j59442347377119_1_alg».proof.Proof.Region5
import Idealize.ShloMosaic.Lib.StableHlo.Run
import Idealize.ShloMosaic.Lib.Pipeline.Value
import Idealize.ShloMosaic.Lib.ValueIdx

set_option maxRecDepth 65536

noncomputable section

namespace Cert.KernelIdeal.Trace

open Cert.KernelIdeal Cert.KernelIdeal.Gen Cert.KernelIdeal.Keep Cert.KernelIdeal.Entry Cert.Stages
open Idealize.ShloMosaic Idealize.ShloMosaic.TcCoe Idealize.SL.Sem Idealize.ShloMosaic.StableHlo Idealize.ShloMosaic.ValueIdx

variable [Cert.ReferenceIdeal.Facts]

/-! ## The bias row: a reshape of [n] to [1, n] is the broadcast of [n] along a new leading axis -/

/-- Both read, at (0, q), entry q of the bias. -/
theorem biasRow128_eq (b : FVec Ideal Cert.KernelIdeal.S128 .f32) (h : Cert.KernelIdeal.S128.ShapeCasts Cert.KernelIdeal.S1x128) :
    shapeCast Cert.KernelIdeal.S1x128 b h = biasRow128 b := by
  funext j
  obtain ⟨p, q, rfl⟩ : ∃ (p : Fin 1) (q : Fin 128), j = ix2 p q := ⟨j 0, j 1, eq_ix2 j⟩
  unfold biasRow128
  rw [shapeCast_apply b h (ix2 p q) (ix1 q) (by
        rw [Shape.rowMajor_val_two, Shape.rowMajor_val_one]
        show q.val = p.val * 128 + q.val
        have := p.isLt
        omega),
    broadcastInDim_apply _ _ b (ix2 p q) (ix1 q) (fun a => by
        match a with
        | ⟨0, _⟩ => rfl)]

/-- The same for the 40-entry bias. -/
theorem biasRow40_eq (b : FVec Ideal Cert.KernelIdeal.S40 .f32) (h : Cert.KernelIdeal.S40.ShapeCasts Cert.KernelIdeal.S1x40) :
    shapeCast Cert.KernelIdeal.S1x40 b h = biasRow40 b := by
  funext j
  obtain ⟨p, q, rfl⟩ : ∃ (p : Fin 1) (q : Fin 40), j = ix2 p q := ⟨j 0, j 1, eq_ix2 j⟩
  unfold biasRow40
  rw [shapeCast_apply b h (ix2 p q) (ix1 q) (by
        rw [Shape.rowMajor_val_two, Shape.rowMajor_val_one]
        show q.val = p.val * 40 + q.val
        have := p.isLt
        omega),
    broadcastInDim_apply _ _ b (ix2 p q) (ix1 q) (fun a => by
        match a with
        | ⟨0, _⟩ => rfl)]

/-! ## The three message-passing stretches, from any contents -/

set_option maxHeartbeats 4000000 in
/-- The stretch after the first product: messages along the edges with the unit-weight normalisation, and the bias row. -/
theorem stretch1_agg (V : Valuation τ sig (Elt Ideal)) :
    StableHlo.after hostOps1 V (Proc.devRef .tc main_v74)
      = aggregate128 (V (Proc.devRef .tc main_v61)) (V (Proc.devRef .tc main_v6)) (V (Proc.devRef .tc main_v7))
          (V (Proc.devRef .tc main_v32)) := by
  after_results_simp
  rfl
set_option maxHeartbeats 4000000 in
theorem stretch1_bias (V : Valuation τ sig (Elt Ideal)) :
    StableHlo.after hostOps1 V (Proc.devRef .tc main_v75) = biasRow128 (V (Proc.devRef .tc main_arg4)) := by
  after_results_simp
  exact biasRow128_eq _ _

set_option maxHeartbeats 4000000 in
/-- The stretch after the second product: messages with the weighted normalisation, and the bias row. -/
theorem stretch3_agg (V : Valuation τ sig (Elt Ideal)) :
    StableHlo.after hostOps3 V (Proc.devRef .tc main_v90)
      = aggregate128 (V (Proc.devRef .tc main_v77)) (V (Proc.devRef .tc main_v34)) (V (Proc.devRef .tc main_v35))
          (V (Proc.devRef .tc main_v60)) := by
  after_results_simp
  rfl
set_option maxHeartbeats 4000000 in
theorem stretch3_bias (V : Valuation τ sig (Elt Ideal)) :
    StableHlo.after hostOps3 V (Proc.devRef .tc main_v91) = biasRow128 (V (Proc.devRef .tc main_arg6)) := by
  after_results_simp
  exact biasRow128_eq _ _

set_option maxHeartbeats 4000000 in
/-- The stretch after the third product: messages on 40-wide rows with the unit-weight normalisation, and the bias row. -/
theorem stretch5_agg (V : Valuation τ sig (Elt Ideal)) :
    StableHlo.after hostOps5 V (Proc.devRef .tc main_v106)
      = aggregate40 (V (Proc.devRef .tc main_v93)) (V (Proc.devRef .tc main_v6)) (V (Proc.devRef .tc main_v7))
          (V (Proc.devRef .tc main_v32)) := by
  after_results_simp
  rfl
set_option maxHeartbeats 4000000 in
theorem stretch5_bias (V : Valuation τ sig (Elt Ideal)) :
    StableHlo.after hostOps5 V (Proc.devRef .tc main_v107) = biasRow40 (V (Proc.devRef .tc main_arg8)) := by
  after_results_simp
  exact biasRow40_eq _ _

variable (m : (ℓ : Loc nD τ sig) → Buf (Elt Ideal) ℓ) (ρ : Dev nD → PrngReg) (c : Dev nD)

/-! ## Region by region -/

/-- After region 0: the first product. -/
theorem product1 : W6 m ρ c (Proc.devRef .tc main_v61) = linear128 (m ((c : Thread nD τ).loc main_arg0)) (m ((c : Thread nD τ).loc main_arg3)) :=
  (W6_arr m ρ c 2).trans ((Region0.value (V5 m ρ) c).trans
    (congrArg₂ linear128 (arg5 m ρ c main_arg0 (by decide) (by decide) (by decide) (by decide) (by decide)) (arg5 m ρ c main_arg3 (by decide) (by decide) (by decide) (by decide) (by decide))))

/-- After the first message-passing stretch. -/
theorem messages1 : W7 m ρ c (Proc.devRef .tc main_v74)
    = aggregate128 (linear128 (m ((c : Thread nD τ).loc main_arg0)) (m ((c : Thread nD τ).loc main_arg3))) (loopsSrc (m ((c : Thread nD τ).loc main_arg1))) (loopsDst (m ((c : Thread nD τ).loc main_arg1))) (norm1 (m ((c : Thread nD τ).loc main_arg1))) := by
  refine (stretch1_agg (W6 m ρ c)).trans ?_
  rw [product1 m ρ c, (keep6 m ρ c main_v6 (by decide)).trans (entry_src m ρ c),
    (keep6 m ρ c main_v7 (by decide)).trans (entry_dst m ρ c), (keep6 m ρ c main_v32 (by decide)).trans (entry_norm1 m ρ c)]
theorem bias1 : W7 m ρ c (Proc.devRef .tc main_v75) = biasRow128 (m ((c : Thread nD τ).loc main_arg4)) := by
  refine (stretch1_bias (W6 m ρ c)).trans ?_
  rw [(keep6 m ρ c main_arg4 (by decide)).trans (arg5 m ρ c main_arg4 (by decide) (by decide) (by decide) (by decide) (by decide))]

/-- After region 1: the first layer. -/
theorem layer1 : W8 m ρ c (Proc.devRef .tc main_v76) = hidden1 (m ((c : Thread nD τ).loc main_arg0)) (m ((c : Thread nD τ).loc main_arg1)) (m ((c : Thread nD τ).loc main_arg3)) (m ((c : Thread nD τ).loc main_arg4)) :=
  (W8_arr m ρ c 2).trans ((Region1.value (V7 m ρ) c).trans (congrArg₂ biasRelu (messages1 m ρ c) (bias1 m ρ c)))

/-- After region 2: the second product. -/
theorem product2 : W9 m ρ c (Proc.devRef .tc main_v77)
    = linear128 (hidden1 (m ((c : Thread nD τ).loc main_arg0)) (m ((c : Thread nD τ).loc main_arg1)) (m ((c : Thread nD τ).loc main_arg3)) (m ((c : Thread nD τ).loc main_arg4))) (m ((c : Thread nD τ).loc main_arg5)) :=
  (W9_arr m ρ c 2).trans ((Region2.value (V8 m ρ) c).trans
    (congrArg₂ linear128 (layer1 m ρ c)
      ((keep8 m ρ c main_arg5 (by decide) (by decide) (by decide)).trans (arg5 m ρ c main_arg5 (by decide) (by decide) (by decide) (by decide) (by decide)))))

/-- After the second message-passing stretch. -/
theorem messages2 : W10 m ρ c (Proc.devRef .tc main_v90)
    = aggregate128 (linear128 (hidden1 (m ((c : Thread nD τ).loc main_arg0)) (m ((c : Thread nD τ).loc main_arg1)) (m ((c : Thread nD τ).loc main_arg3)) (m ((c : Thread nD τ).loc main_arg4))) (m ((c : Thread nD τ).loc main_arg5)))
        (loopsSrc (m ((c : Thread nD τ).loc main_arg1))) (loopsDst (m ((c : Thread nD τ).loc main_arg1))) (norm2 (m ((c : Thread nD τ).loc main_arg1)) (m ((c : Thread nD τ).loc main_arg2))) := by
  refine (stretch3_agg (W9 m ρ c)).trans ?_
  rw [product2 m ρ c, (keep9 m ρ c main_v34 (by decide) (by decide) (by decide) (by decide)).trans (entry_src' m ρ c),
    (keep9 m ρ c main_v35 (by decide) (by decide) (by decide) (by decide)).trans (entry_dst' m ρ c),
    (keep9 m ρ c main_v60 (by decide) (by decide) (by decide) (by decide)).trans (entry_norm2 m ρ c)]
theorem bias2 : W10 m ρ c (Proc.devRef .tc main_v91) = biasRow128 (m ((c : Thread nD τ).loc main_arg6)) := by
  refine (stretch3_bias (W9 m ρ c)).trans ?_
  rw [(keep9 m ρ c main_arg6 (by decide) (by decide) (by decide) (by decide)).trans (arg5 m ρ c main_arg6 (by decide) (by decide) (by decide) (by decide) (by decide))]

/-- After region 3: the second layer joined to the first. -/
theorem layer2 : W11 m ρ c (Proc.devRef .tc main_v92)
    = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W11_arr m ρ c 3).trans ((Region3.value (V10 m ρ) c).trans
    (by rw [show V10 m ρ c (Pipeline.arrRef spec3 0) = W8 m ρ c (Proc.devRef .tc main_v76) from hidden_kept10 m ρ c,
          show V10 m ρ c (Pipeline.arrRef spec3 1) = W10 m ρ c (Proc.devRef .tc main_v90) from rfl,
          show V10 m ρ c (Pipeline.arrRef spec3 2) = W10 m ρ c (Proc.devRef .tc main_v91) from rfl,
          layer1 m ρ c, messages2 m ρ c, bias2 m ρ c]; rfl))

/-- After region 4: the third product. -/
theorem product3 : W12 m ρ c (Proc.devRef .tc main_v93)
    = linear40 (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) :=
  (W12_arr m ρ c 2).trans ((Region4.value (V11 m ρ) c).trans
    (congrArg₂ linear40 (layer2 m ρ c)
      ((keep11 m ρ c main_arg7 (by decide) (by decide) (by decide) (by decide) (by decide) (by decide)).trans
        (arg5 m ρ c main_arg7 (by decide) (by decide) (by decide) (by decide) (by decide)))))

/-- After the third message-passing stretch. -/
theorem messages3 : W13 m ρ c (Proc.devRef .tc main_v106)
    = aggregate40 (linear40 (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)))
        (loopsSrc (m ((c : Thread nD τ).loc main_arg1))) (loopsDst (m ((c : Thread nD τ).loc main_arg1))) (norm1 (m ((c : Thread nD τ).loc main_arg1))) := by
  refine (stretch5_agg (W12 m ρ c)).trans ?_
  rw [product3 m ρ c,
    (keep12 m ρ c main_v6 (by decide) (by decide) (by decide) (by decide) (by decide) (by decide) (by decide)).trans (entry_src m ρ c),
    (keep12 m ρ c main_v7 (by decide) (by decide) (by decide) (by decide) (by decide) (by decide) (by decide)).trans (entry_dst m ρ c),
    (keep12 m ρ c main_v32 (by decide) (by decide) (by decide) (by decide) (by decide) (by decide) (by decide)).trans (entry_norm1 m ρ c)]
theorem bias3 : W13 m ρ c (Proc.devRef .tc main_v107) = biasRow40 (m ((c : Thread nD τ).loc main_arg8)) := by
  refine (stretch5_bias (W12 m ρ c)).trans ?_
  rw [(keep12 m ρ c main_arg8 (by decide) (by decide) (by decide) (by decide) (by decide) (by decide) (by decide)).trans
    (arg5 m ρ c main_arg8 (by decide) (by decide) (by decide) (by decide) (by decide))]

/-- After region 5: the result buffer holds the network function of the launch contents of the nine arguments. -/
theorem result : W14 m ρ c (Proc.devRef .tc main_v108)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W14_arr m ρ c 2).trans ((Region5.value (V13 m ρ) c).trans (congrArg₂ biasLogSoftmax (messages3 m ρ c) (bias3 m ρ c)))

end Cert.KernelIdeal.Trace

end
-- ==== Proof.LibConcatPair.lean ====
/-
  Two arrays joined end to end, as a function of the two arrays.

  The concatenation of a list of arrays takes the list as pairs (shape, array), the array's type depending on the
  shape. For two arrays this module names the same value as a function `join2` of the two arrays themselves, so that
  an equation between arrays can be used on either of them like on any other argument; `concatenate_pair` rewrites the
  list form into it (they are the same by definition), and `join2_congr` is its congruence.
-/
import Idealize.ShloMosaic.PureOps.ShapeOps

namespace Cert.LibConcatPair

open Idealize.ShloMosaic

/-- The arrays `a` (shape `s₁`) and `b` (shape `s₂`) joined along axis `ax` into shape `t`. -/
def join2 {α : Type} (t : Shape) (ax : Fin t.rank) {s₁ s₂ : Shape} (a : s₁.Idx → α) (b : s₂.Idx → α)
    (h : Shape.Concatenates [s₁, s₂] t ax) : t.Idx → α :=
  concatenate t ax [⟨s₁, a⟩, ⟨s₂, b⟩] h

/-- The concatenation of a two-element list is `join2` of its two arrays. -/
theorem concatenate_pair {α : Type} (t : Shape) (ax : Fin t.rank) {s₁ s₂ : Shape} (a : s₁.Idx → α) (b : s₂.Idx → α)
    (h : Shape.Concatenates [s₁, s₂] t ax) : concatenate t ax [⟨s₁, a⟩, ⟨s₂, b⟩] h = join2 t ax a b h := rfl

/-- Equal arrays join to equal arrays. -/
theorem join2_congr {α : Type} (t : Shape) (ax : Fin t.rank) {s₁ s₂ : Shape} {a a' : s₁.Idx → α} {b b' : s₂.Idx → α}
    (h : Shape.Concatenates [s₁, s₂] t ax) (ha : a = a') (hb : b = b') : join2 t ax a b h = join2 t ax a' b' h := by
  subst ha hb; rfl

end Cert.LibConcatPair
-- ==== Proof.ReferencePart1.lean ====
/-
  The first layer of the reference network, read off its operations.

  The reference's operations up to the first layer's output are cut into four consecutive pieces: the edge lists with
  their self-loops, the unit weights and the degree; the selection that turns the degree into 1/√degree (zero where the
  degree is not positive); the edge normalisation, the product of the features by the first weight matrix, the message
  passing and the bias; and the maximum with zero. Each piece is read from ARBITRARY contents of the buffers, one result
  at a time, as a function of the contents of the buffers it reads; a buffer a piece does not write keeps its contents.
  Chaining the four readings gives the first layer's output, the edge endpoints and the unit weights as functions of the
  argument arrays, and the argument arrays themselves unchanged.
-/
import proofs.«101195_j59442347377119_1_alg».proof.Proof.ReferenceOps
import proofs.«101195_j59442347377119_1_alg».proof.Proof.Network
import proofs.«101195_j59442347377119_1_alg».proof.Proof.LibConcatPair
import Idealize.ShloMosaic.Lib.StableHlo.Run

set_option maxRecDepth 65536
set_option maxHeartbeats 4000000

noncomputable section

namespace Cert.ReferenceIdeal.RefValue

open Cert.ReferenceIdeal Cert.ReferenceIdeal.Gen Cert.ReferenceIdeal.ValueP Cert.Stages Idealize.ShloMosaic Idealize.ShloMosaic.TcCoe Idealize.SL.Sem Idealize.ShloMosaic.StableHlo

/-- Reads the remaining results one at a time (also inside the two halves of a concatenation). -/
macro "finish_reads" : tactic =>
  `(tactic| repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)))

/-! ## What each piece writes, and what it therefore keeps -/

/-- The result buffers of the operations of piece 0, in order. -/
abbrev written0 : List (Ref sig .tc) := [main_v0, main_v1, main_v2, main_v3, main_cst, main_v4, main_v5, main_v6, main_v7, main_cst_0, main_v8, main_v9, main_cst_1, main_v10, main_v11, main_v12, main_cst_2, main_v13, main_v14, main_v15, main_cst_3]
theorem writes0 : (ops0 : List (HloOp τ sig (Elt Ideal))).Forall fun op => op.writes ⊆ (written0.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer piece 0 does not write keeps its contents. -/
theorem keep0 (V : Valuation τ sig (Elt Ideal)) (r : Ref sig .tc) (h : r ∉ written0) :
    after ops0 V (Proc.devRef .tc r) = V (Proc.devRef .tc r) := after_of_writes_sub ops0 _ writes0 h

/-- The result buffers of the operations of piece 1, in order. -/
abbrev written1 : List (Ref sig .tc) := [main_call0_v0, main_call0_v1, main_v16]
theorem writes1 : (ops1 : List (HloOp τ sig (Elt Ideal))).Forall fun op => op.writes ⊆ (written1.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer piece 1 does not write keeps its contents. -/
theorem keep1 (V : Valuation τ sig (Elt Ideal)) (r : Ref sig .tc) (h : r ∉ written1) :
    after ops1 V (Proc.devRef .tc r) = V (Proc.devRef .tc r) := after_of_writes_sub ops1 _ writes1 h

/-- The result buffers of the operations of piece 2, in order. -/
abbrev written2 : List (Ref sig .tc) := [main_c, main_v17, main_v18, main_c_4, main_v19, main_v20, main_v21, main_v22, main_v23, main_v24, main_c_5, main_v25, main_v26, main_c_6, main_v27, main_v28, main_v29, main_v30, main_v31, main_v32, main_v33, main_c_7, main_v34, main_v35, main_c_8, main_v36, main_v37, main_v38, main_v39, main_v40, main_v41, main_v42, main_v43, main_cst_9, main_v44, main_v45, main_v46, main_v47, main_v48, main_v49]
theorem writes2 : (ops2 : List (HloOp τ sig (Elt Ideal))).Forall fun op => op.writes ⊆ (written2.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer piece 2 does not write keeps its contents. -/
theorem keep2 (V : Valuation τ sig (Elt Ideal)) (r : Ref sig .tc) (h : r ∉ written2) :
    after ops2 V (Proc.devRef .tc r) = V (Proc.devRef .tc r) := after_of_writes_sub ops2 _ writes2 h

/-- The result buffers of the operations of piece 3, in order. -/
abbrev written3 : List (Ref sig .tc) := [main_call1_cst, main_call1_v0, main_v50]
theorem writes3 : (ops3 : List (HloOp τ sig (Elt Ideal))).Forall fun op => op.writes ⊆ (written3.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
/-- A buffer piece 3 does not write keeps its contents. -/
theorem keep3 (V : Valuation τ sig (Elt Ideal)) (r : Ref sig .tc) (h : r ∉ written3) :
    after ops3 V (Proc.devRef .tc r) = V (Proc.devRef .tc r) := after_of_writes_sub ops3 _ writes3 h

/-! ## Piece 0: edge lists, self-loops, unit weights, degree -/

variable (V : Valuation τ sig (Elt Ideal))

theorem p0_v1 : after ops0 V (Proc.devRef .tc main_v1) = srcOf (V (Proc.devRef .tc main_arg1)) := by after_results_simp; finish_reads; all_goals rfl
theorem p0_v3 : after ops0 V (Proc.devRef .tc main_v3) = dstOf (V (Proc.devRef .tc main_arg1)) := by after_results_simp; finish_reads; all_goals rfl
theorem p0_v4 : after ops0 V (Proc.devRef .tc main_v4) = unitWeights := by after_results_simp; finish_reads; all_goals rfl
theorem p0_v6 : after ops0 V (Proc.devRef .tc main_v6) = loopsSrc (V (Proc.devRef .tc main_arg1)) := by after_results_simp; finish_reads; all_goals rfl
theorem p0_v7 : after ops0 V (Proc.devRef .tc main_v7) = loopsDst (V (Proc.devRef .tc main_arg1)) := by after_results_simp; finish_reads; all_goals rfl
theorem p0_v9 : after ops0 V (Proc.devRef .tc main_v9) = withOnes unitWeights := by after_results_simp; finish_reads; all_goals rfl
theorem p0_v14 : after ops0 V (Proc.devRef .tc main_v14)
    = cmpf .ogt (degree (loopsDst (V (Proc.devRef .tc main_arg1))) (withOnes unitWeights)) (broadcastInDim S50000 ![] bcast_S_S50000 (constant (F := Ideal) S_ .f32 0x00000000#32)) := by after_results_simp; finish_reads; all_goals rfl
theorem p0_v15 : after ops0 V (Proc.devRef .tc main_v15)
    = Host.rsqrt (degree (loopsDst (V (Proc.devRef .tc main_arg1))) (withOnes unitWeights)) := by after_results_simp; finish_reads; all_goals rfl
theorem p0_cst3 : after ops0 V (Proc.devRef .tc main_cst_3) = constant (F := Ideal) S_ .f32 0x00000000#32 := by after_results_simp; finish_reads; all_goals rfl

/-! ## Piece 1: 1/√degree where the degree is positive, zero elsewhere -/

theorem p1_v16 : after ops1 V (Proc.devRef .tc main_v16)
    = (select (V (Proc.devRef .tc main_v14) : IVec S50000 1) (V (Proc.devRef .tc main_v15) : FArr S50000)
        (broadcastInDim S50000 ![] bcast_S_S50000 (id (V (Proc.devRef .tc main_cst_3) : FArr S_))) : FArr S50000) := by after_results_simp; finish_reads; all_goals rfl

/-! ## Piece 2: normalisation, product, message passing, bias -/

theorem p2_v49 : after ops2 V (Proc.devRef .tc main_v49)
    = (addf (aggregate128 (linear128 (V (Proc.devRef .tc main_arg0) : FArr S50000x128) (V (Proc.devRef .tc main_arg3) : FArr S128x128))
          (V (Proc.devRef .tc main_v6) : IArr S850000) (V (Proc.devRef .tc main_v7) : IArr S850000)
          (mulf (mulf (Host.gather gather_S50000_S850000x1_S850000_n_0_n_n_0_1_1 (V (Proc.devRef .tc main_v16) : FArr S50000) (broadcastInDim S850000x1 ![0] bcast_S850000_S850000x1_0 (wrapped (V (Proc.devRef .tc main_v6) : IArr S850000)))) (V (Proc.devRef .tc main_v9) : FArr S850000))
            (Host.gather gather_S50000_S850000x1_S850000_n_0_n_n_0_1_1 (V (Proc.devRef .tc main_v16) : FArr S50000) (broadcastInDim S850000x1 ![0] bcast_S850000_S850000x1_0 (wrapped (V (Proc.devRef .tc main_v7) : IArr S850000))))))
        (broadcastInDim S50000x128 ![0, 1] bcast_S1x128_S50000x128_0_1 (biasRow128 (V (Proc.devRef .tc main_arg4) : FArr S128))) : FArr S50000x128) := by after_results_simp; finish_reads; all_goals rfl

/-! ## Piece 3: the maximum with zero -/

theorem p3_v50 : after ops3 V (Proc.devRef .tc main_v50)
    = (maximumf (V (Proc.devRef .tc main_v49) : FArr S50000x128)
        (broadcastInDim S50000x128 ![] bcast_S_S50000x128 (constant (F := Ideal) S_ .f32 0x00000000#32)) : FArr S50000x128) := by after_results_simp; finish_reads; all_goals rfl

/-! ## The four pieces chained -/

/-- The buffers' contents after the four pieces, from contents `V`. -/
abbrev S3 (V : Valuation τ sig (Elt Ideal)) : Valuation τ sig (Elt Ideal) := after ops3 (after ops2 (after ops1 (after ops0 V)))

/-- A buffer none of the four pieces writes holds what it held. -/
theorem keep_all (r : Ref sig .tc) (h0 : r ∉ written0) (h1 : r ∉ written1) (h2 : r ∉ written2) (h3 : r ∉ written3) :
    S3 V (Proc.devRef .tc r) = V (Proc.devRef .tc r) :=
  (keep3 _ r h3).trans ((keep2 _ r h2).trans ((keep1 _ r h1).trans (keep0 V r h0)))

/-- The first layer's output. -/
theorem part1_hidden : S3 V (Proc.devRef .tc main_v50)
    = hidden1 (V (Proc.devRef .tc main_arg0)) (V (Proc.devRef .tc main_arg1)) (V (Proc.devRef .tc main_arg3)) (V (Proc.devRef .tc main_arg4)) := by
  show after ops3 (after ops2 (after ops1 (after ops0 V))) (Proc.devRef .tc main_v50) = _
  rw [p3_v50, p2_v49, p1_v16,
    keep1 _ main_arg0 (by decide), keep1 _ main_arg3 (by decide), keep1 _ main_arg4 (by decide),
    keep1 _ main_v6 (by decide), keep1 _ main_v7 (by decide), keep1 _ main_v9 (by decide),
    keep0 _ main_arg0 (by decide), keep0 _ main_arg3 (by decide), keep0 _ main_arg4 (by decide),
    p0_v6, p0_v7, p0_v9, p0_v14, p0_v15, p0_cst3]
  rfl

/-- The edges' source nodes. -/
theorem part1_src : S3 V (Proc.devRef .tc main_v1) = srcOf (V (Proc.devRef .tc main_arg1)) :=
  (keep3 _ main_v1 (by decide)).trans ((keep2 _ main_v1 (by decide)).trans ((keep1 _ main_v1 (by decide)).trans (p0_v1 V)))

/-- The edges' destination nodes. -/
theorem part1_dst : S3 V (Proc.devRef .tc main_v3) = dstOf (V (Proc.devRef .tc main_arg1)) :=
  (keep3 _ main_v3 (by decide)).trans ((keep2 _ main_v3 (by decide)).trans ((keep1 _ main_v3 (by decide)).trans (p0_v3 V)))

/-- The unit weights. -/
theorem part1_ones : S3 V (Proc.devRef .tc main_v4) = unitWeights :=
  (keep3 _ main_v4 (by decide)).trans ((keep2 _ main_v4 (by decide)).trans ((keep1 _ main_v4 (by decide)).trans (p0_v4 V)))

/-- The argument arrays the first layer does not consume are as they were. -/
theorem part1_arg2 : S3 V (Proc.devRef .tc main_arg2) = V (Proc.devRef .tc main_arg2) :=
  keep_all V main_arg2 (by decide) (by decide) (by decide) (by decide)
theorem part1_arg5 : S3 V (Proc.devRef .tc main_arg5) = V (Proc.devRef .tc main_arg5) :=
  keep_all V main_arg5 (by decide) (by decide) (by decide) (by decide)
theorem part1_arg6 : S3 V (Proc.devRef .tc main_arg6) = V (Proc.devRef .tc main_arg6) :=
  keep_all V main_arg6 (by decide) (by decide) (by decide) (by decide)
theorem part1_arg7 : S3 V (Proc.devRef .tc main_arg7) = V (Proc.devRef .tc main_arg7) :=
  keep_all V main_arg7 (by decide) (by decide) (by decide) (by decide)
theorem part1_arg8 : S3 V (Proc.devRef .tc main_arg8) = V (Proc.devRef .tc main_arg8) :=
  keep_all V main_arg8 (by decide) (by decide) (by decide) (by decide)

end Cert.ReferenceIdeal.RefValue

end
-- ==== Proof.ReferencePart2.lean ====
/-
  The second layer of the reference, read from its operations.

  The reference's operations 67–146 are three consecutive lists: the first (`ops4`) appends the self-loops to the edge
  endpoints and to the given edge weights and computes the weighted in-degree `deg`, the comparison `deg > 0` and
  `1/√deg`; the second (`ops5`) selects `1/√deg` where `deg > 0` and zero elsewhere; the third (`ops6`) forms the edge
  normalisation  n(e) = dinv(src e) · w(e) · dinv(dst e),  multiplies the first layer by the second weight matrix,
  passes the messages, adds the bias row and forms  0.1 · h₁ + 1 · (messages + bias);  it then prepares the third layer's
  self-loop lists, unit weights, degree, comparison and reciprocal square root.

  Each list is read on its own from ARBITRARY buffer contents `V`: a buffer the list writes holds a function of the
  contents of the buffers the list reads, and a buffer it does not write keeps its contents. Composing the three
  readings gives the contents after all three lists as the functions of `Cert.Stages`.
-/
import proofs.«101195_j59442347377119_1_alg».proof.Proof.ReferenceOps
import proofs.«101195_j59442347377119_1_alg».proof.Proof.Network
import proofs.«101195_j59442347377119_1_alg».proof.Proof.LibConcatPair
import Idealize.ShloMosaic.Lib.StableHlo.Run

set_option maxRecDepth 65536
set_option maxHeartbeats 4000000

noncomputable section

namespace Cert.ReferenceIdeal.RefValue.P2

open Cert.ReferenceIdeal Cert.ReferenceIdeal.Gen Cert.ReferenceIdeal.ValueP Cert.Stages Idealize.ShloMosaic Idealize.ShloMosaic.TcCoe Idealize.SL.Sem Idealize.ShloMosaic.StableHlo

/-- Reads the results still unread after the first pass, one at a time (also inside the two arrays of a join):
    at its own result buffer an operation's value, at any other buffer what was there. -/
macro "p2_finish_reads" : tactic =>
  `(tactic| repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)))

/-- One buffer after one list of operations, as a function of the contents before the list. -/
macro "p2_read_piece" : tactic => `(tactic| (after_results_simp; p2_finish_reads; all_goals rfl))

/-! ### The first list: self-loops, weights, degree -/

/-- The sources with one self-loop per node appended. -/
theorem p4_v52 (V : Valuation τ sig (Elt Ideal)) : after ops4 V (Proc.devRef .tc main_v52) = withLoops (V (Proc.devRef .tc main_v1) : IArr S800000) := by p2_read_piece
/-- The destinations with one self-loop per node appended. -/
theorem p4_v53 (V : Valuation τ sig (Elt Ideal)) : after ops4 V (Proc.devRef .tc main_v53) = withLoops (V (Proc.devRef .tc main_v3) : IArr S800000) := by p2_read_piece
/-- The given edge weights with weight one for every self-loop appended. -/
theorem p4_v55 (V : Valuation τ sig (Elt Ideal)) : after ops4 V (Proc.devRef .tc main_v55) = withOnes (V (Proc.devRef .tc main_arg2) : FArr S800000) := by p2_read_piece
/-- Where the weighted in-degree is positive. -/
theorem p4_v60 (V : Valuation τ sig (Elt Ideal)) : after ops4 V (Proc.devRef .tc main_v60)
    = cmpf .ogt (degree (withLoops (V (Proc.devRef .tc main_v3) : IArr S800000)) (withOnes (V (Proc.devRef .tc main_arg2) : FArr S800000)))
        (broadcastInDim S50000 ![] bcast_S_S50000 (constant (F := Ideal) S_ .f32 0x00000000#32)) := by p2_read_piece
/-- The reciprocal square root of the weighted in-degree. -/
theorem p4_v61 (V : Valuation τ sig (Elt Ideal)) : after ops4 V (Proc.devRef .tc main_v61)
    = Host.rsqrt (degree (withLoops (V (Proc.devRef .tc main_v3) : IArr S800000)) (withOnes (V (Proc.devRef .tc main_arg2) : FArr S800000))) := by p2_read_piece
/-- The scalar zero. -/
theorem p4_cst13 (V : Valuation τ sig (Elt Ideal)) : after ops4 V (Proc.devRef .tc main_cst_13) = constant (F := Ideal) S_ .f32 0x00000000#32 := by p2_read_piece
/-! Buffers the first list does not write keep their contents. -/
theorem p4_keep_v50 (V : Valuation τ sig (Elt Ideal)) : after ops4 V (Proc.devRef .tc main_v50) = V (Proc.devRef .tc main_v50) := by p2_read_piece
theorem p4_keep_arg5 (V : Valuation τ sig (Elt Ideal)) : after ops4 V (Proc.devRef .tc main_arg5) = V (Proc.devRef .tc main_arg5) := by p2_read_piece
theorem p4_keep_arg6 (V : Valuation τ sig (Elt Ideal)) : after ops4 V (Proc.devRef .tc main_arg6) = V (Proc.devRef .tc main_arg6) := by p2_read_piece
theorem p4_keep_v1 (V : Valuation τ sig (Elt Ideal)) : after ops4 V (Proc.devRef .tc main_v1) = V (Proc.devRef .tc main_v1) := by p2_read_piece
theorem p4_keep_v3 (V : Valuation τ sig (Elt Ideal)) : after ops4 V (Proc.devRef .tc main_v3) = V (Proc.devRef .tc main_v3) := by p2_read_piece
theorem p4_keep_v4 (V : Valuation τ sig (Elt Ideal)) : after ops4 V (Proc.devRef .tc main_v4) = V (Proc.devRef .tc main_v4) := by p2_read_piece
theorem p4_keep_arg7 (V : Valuation τ sig (Elt Ideal)) : after ops4 V (Proc.devRef .tc main_arg7) = V (Proc.devRef .tc main_arg7) := by p2_read_piece
theorem p4_keep_arg8 (V : Valuation τ sig (Elt Ideal)) : after ops4 V (Proc.devRef .tc main_arg8) = V (Proc.devRef .tc main_arg8) := by p2_read_piece

/-! ### The second list: `1/√deg` where the degree is positive, zero elsewhere -/

theorem p5_v62 (V : Valuation τ sig (Elt Ideal)) : after ops5 V (Proc.devRef .tc main_v62)
    = (select (V (Proc.devRef .tc main_v60) : IVec S50000 1) (V (Proc.devRef .tc main_v61) : FArr S50000)
        (broadcastInDim S50000 ![] bcast_S_S50000 (id (V (Proc.devRef .tc main_cst_13) : FArr S_))) : FArr S50000) := by p2_read_piece
/-! Buffers the second list does not write keep their contents. -/
theorem p5_keep_v52 (V : Valuation τ sig (Elt Ideal)) : after ops5 V (Proc.devRef .tc main_v52) = V (Proc.devRef .tc main_v52) := by p2_read_piece
theorem p5_keep_v53 (V : Valuation τ sig (Elt Ideal)) : after ops5 V (Proc.devRef .tc main_v53) = V (Proc.devRef .tc main_v53) := by p2_read_piece
theorem p5_keep_v55 (V : Valuation τ sig (Elt Ideal)) : after ops5 V (Proc.devRef .tc main_v55) = V (Proc.devRef .tc main_v55) := by p2_read_piece
theorem p5_keep_v50 (V : Valuation τ sig (Elt Ideal)) : after ops5 V (Proc.devRef .tc main_v50) = V (Proc.devRef .tc main_v50) := by p2_read_piece
theorem p5_keep_arg5 (V : Valuation τ sig (Elt Ideal)) : after ops5 V (Proc.devRef .tc main_arg5) = V (Proc.devRef .tc main_arg5) := by p2_read_piece
theorem p5_keep_arg6 (V : Valuation τ sig (Elt Ideal)) : after ops5 V (Proc.devRef .tc main_arg6) = V (Proc.devRef .tc main_arg6) := by p2_read_piece
theorem p5_keep_v1 (V : Valuation τ sig (Elt Ideal)) : after ops5 V (Proc.devRef .tc main_v1) = V (Proc.devRef .tc main_v1) := by p2_read_piece
theorem p5_keep_v3 (V : Valuation τ sig (Elt Ideal)) : after ops5 V (Proc.devRef .tc main_v3) = V (Proc.devRef .tc main_v3) := by p2_read_piece
theorem p5_keep_v4 (V : Valuation τ sig (Elt Ideal)) : after ops5 V (Proc.devRef .tc main_v4) = V (Proc.devRef .tc main_v4) := by p2_read_piece
theorem p5_keep_arg7 (V : Valuation τ sig (Elt Ideal)) : after ops5 V (Proc.devRef .tc main_arg7) = V (Proc.devRef .tc main_arg7) := by p2_read_piece
theorem p5_keep_arg8 (V : Valuation τ sig (Elt Ideal)) : after ops5 V (Proc.devRef .tc main_arg8) = V (Proc.devRef .tc main_arg8) := by p2_read_piece

/-! ### The third list: normalisation, product, messages, combination; then the third layer's lists and degree -/

/-- The combination `0.1 · h₁ + 1 · (messages + bias)`, the messages passed along the edges weighted by
    `dinv(src e) · w(e) · dinv(dst e)`, from the first layer, the second weight matrix, the edge lists with their
    self-loops, the selected `dinv`, the weights and the bias. -/
theorem p6_v100 (V : Valuation τ sig (Elt Ideal)) : after ops6 V (Proc.devRef .tc main_v100)
    = combine (V (Proc.devRef .tc main_v50) : FArr S50000x128)
        (aggregate128 (linear128 (V (Proc.devRef .tc main_v50) : FArr S50000x128) (V (Proc.devRef .tc main_arg5) : FArr S128x128))
          (V (Proc.devRef .tc main_v52) : IArr S850000) (V (Proc.devRef .tc main_v53) : IArr S850000)
          (mulf (mulf (Host.gather gather_S50000_S850000x1_S850000_n_0_n_n_0_1_1 (V (Proc.devRef .tc main_v62) : FArr S50000) (broadcastInDim S850000x1 ![0] bcast_S850000_S850000x1_0 (wrapped (V (Proc.devRef .tc main_v52) : IArr S850000)))) (V (Proc.devRef .tc main_v55) : FArr S850000))
          (Host.gather gather_S50000_S850000x1_S850000_n_0_n_n_0_1_1 (V (Proc.devRef .tc main_v62) : FArr S50000) (broadcastInDim S850000x1 ![0] bcast_S850000_S850000x1_0 (wrapped (V (Proc.devRef .tc main_v53) : IArr S850000)))) : FArr S850000))
        (biasRow128 (V (Proc.devRef .tc main_arg6) : FArr S128)) := by p2_read_piece
/-- The sources with the self-loops appended, for the third layer. -/
theorem p6_v102 (V : Valuation τ sig (Elt Ideal)) : after ops6 V (Proc.devRef .tc main_v102) = withLoops (V (Proc.devRef .tc main_v1) : IArr S800000) := by p2_read_piece
/-- The destinations with the self-loops appended, for the third layer. -/
theorem p6_v103 (V : Valuation τ sig (Elt Ideal)) : after ops6 V (Proc.devRef .tc main_v103) = withLoops (V (Proc.devRef .tc main_v3) : IArr S800000) := by p2_read_piece
/-- The unit weights with weight one for every self-loop appended. -/
theorem p6_v105 (V : Valuation τ sig (Elt Ideal)) : after ops6 V (Proc.devRef .tc main_v105) = withOnes (V (Proc.devRef .tc main_v4) : FArr S800000) := by p2_read_piece
/-- Where the third layer's in-degree is positive. -/
theorem p6_v110 (V : Valuation τ sig (Elt Ideal)) : after ops6 V (Proc.devRef .tc main_v110)
    = cmpf .ogt (degree (withLoops (V (Proc.devRef .tc main_v3) : IArr S800000)) (withOnes (V (Proc.devRef .tc main_v4) : FArr S800000)))
        (broadcastInDim S50000 ![] bcast_S_S50000 (constant (F := Ideal) S_ .f32 0x00000000#32)) := by p2_read_piece
/-- The reciprocal square root of the third layer's in-degree. -/
theorem p6_v111 (V : Valuation τ sig (Elt Ideal)) : after ops6 V (Proc.devRef .tc main_v111)
    = Host.rsqrt (degree (withLoops (V (Proc.devRef .tc main_v3) : IArr S800000)) (withOnes (V (Proc.devRef .tc main_v4) : FArr S800000))) := by p2_read_piece
/-- The scalar zero. -/
theorem p6_cst26 (V : Valuation τ sig (Elt Ideal)) : after ops6 V (Proc.devRef .tc main_cst_26) = constant (F := Ideal) S_ .f32 0x00000000#32 := by p2_read_piece
/-! Buffers the third list does not write keep their contents. -/
theorem p6_keep_arg7 (V : Valuation τ sig (Elt Ideal)) : after ops6 V (Proc.devRef .tc main_arg7) = V (Proc.devRef .tc main_arg7) := by p2_read_piece
theorem p6_keep_arg8 (V : Valuation τ sig (Elt Ideal)) : after ops6 V (Proc.devRef .tc main_arg8) = V (Proc.devRef .tc main_arg8) := by p2_read_piece

end Cert.ReferenceIdeal.RefValue.P2

namespace Cert.ReferenceIdeal.RefValue

open Cert.ReferenceIdeal Cert.ReferenceIdeal.Gen Cert.ReferenceIdeal.ValueP Cert.Stages Idealize.ShloMosaic Idealize.ShloMosaic.TcCoe Idealize.SL.Sem Idealize.ShloMosaic.StableHlo
open Cert.ReferenceIdeal.RefValue.P2

/-- The buffer contents after the three lists, from contents `V`. -/
abbrev S6 (V : Valuation τ sig (Elt Ideal)) : Valuation τ sig (Elt Ideal) := after ops6 (after ops5 (after ops4 V))

/-- The second layer joined to the first: `0.1 · h₁ + 1 · (agg(h₁ · W₂) + b₂)`, the messages weighted by the edge
    normalisation of the given weights. -/
theorem part2_hidden (V : Valuation τ sig (Elt Ideal)) : S6 V (Proc.devRef .tc main_v100)
    = combine (V (Proc.devRef .tc main_v50) : FArr S50000x128)
        (aggregate128 (linear128 (V (Proc.devRef .tc main_v50) : FArr S50000x128) (V (Proc.devRef .tc main_arg5) : FArr S128x128))
          (withLoops (V (Proc.devRef .tc main_v1) : IArr S800000)) (withLoops (V (Proc.devRef .tc main_v3) : IArr S800000))
          (edgeNorm (withLoops (V (Proc.devRef .tc main_v1) : IArr S800000)) (withLoops (V (Proc.devRef .tc main_v3) : IArr S800000))
            (withOnes (V (Proc.devRef .tc main_arg2) : FArr S800000))))
        (biasRow128 (V (Proc.devRef .tc main_arg6) : FArr S128)) := by
  show after ops6 (after ops5 (after ops4 V)) (Proc.devRef .tc main_v100) = _
  rw [p6_v100, p5_keep_v50, p5_keep_arg5, p5_keep_v52, p5_keep_v53, p5_v62, p5_keep_v55, p5_keep_arg6,
    p4_keep_v50, p4_keep_arg5, p4_v52, p4_v53, p4_v60, p4_v61, p4_cst13, p4_v55, p4_keep_arg6]
  rfl

/-- The third layer's sources: the edge sources with the self-loops appended. -/
theorem part2_src (V : Valuation τ sig (Elt Ideal)) : S6 V (Proc.devRef .tc main_v102) = withLoops (V (Proc.devRef .tc main_v1) : IArr S800000) := by
  show after ops6 (after ops5 (after ops4 V)) (Proc.devRef .tc main_v102) = _
  rw [p6_v102, p5_keep_v1, p4_keep_v1]

/-- The third layer's destinations: the edge destinations with the self-loops appended. -/
theorem part2_dst (V : Valuation τ sig (Elt Ideal)) : S6 V (Proc.devRef .tc main_v103) = withLoops (V (Proc.devRef .tc main_v3) : IArr S800000) := by
  show after ops6 (after ops5 (after ops4 V)) (Proc.devRef .tc main_v103) = _
  rw [p6_v103, p5_keep_v3, p4_keep_v3]

/-- The third layer's weights: the unit weights with weight one for every self-loop appended. -/
theorem part2_ww (V : Valuation τ sig (Elt Ideal)) : S6 V (Proc.devRef .tc main_v105) = withOnes (V (Proc.devRef .tc main_v4) : FArr S800000) := by
  show after ops6 (after ops5 (after ops4 V)) (Proc.devRef .tc main_v105) = _
  rw [p6_v105, p5_keep_v4, p4_keep_v4]

/-- Where the third layer's weighted in-degree is positive. -/
theorem part2_pos (V : Valuation τ sig (Elt Ideal)) : S6 V (Proc.devRef .tc main_v110)
    = cmpf (F := Ideal) .ogt (degree (withLoops (V (Proc.devRef .tc main_v3) : IArr S800000)) (withOnes (V (Proc.devRef .tc main_v4) : FArr S800000)))
        (broadcastInDim S50000 ![] bcast_S_S50000 (constant (F := Ideal) S_ .f32 0x00000000#32)) := by
  show after ops6 (after ops5 (after ops4 V)) (Proc.devRef .tc main_v110) = _
  rw [p6_v110, p5_keep_v3, p5_keep_v4, p4_keep_v3, p4_keep_v4]

/-- The reciprocal square root of the third layer's weighted in-degree. -/
theorem part2_rsqrt (V : Valuation τ sig (Elt Ideal)) : S6 V (Proc.devRef .tc main_v111)
    = Host.rsqrt (degree (withLoops (V (Proc.devRef .tc main_v3) : IArr S800000)) (withOnes (V (Proc.devRef .tc main_v4) : FArr S800000))) := by
  show after ops6 (after ops5 (after ops4 V)) (Proc.devRef .tc main_v111) = _
  rw [p6_v111, p5_keep_v3, p5_keep_v4, p4_keep_v3, p4_keep_v4]

/-- The scalar zero the third selection reads. -/
theorem part2_zero (V : Valuation τ sig (Elt Ideal)) : S6 V (Proc.devRef .tc main_cst_26) = constant (F := Ideal) S_ .f32 0x00000000#32 := by
  show after ops6 (after ops5 (after ops4 V)) (Proc.devRef .tc main_cst_26) = _
  rw [p6_cst26]

/-- The third weight matrix is not written. -/
theorem part2_arg7 (V : Valuation τ sig (Elt Ideal)) : S6 V (Proc.devRef .tc main_arg7) = V (Proc.devRef .tc main_arg7) := by
  show after ops6 (after ops5 (after ops4 V)) (Proc.devRef .tc main_arg7) = _
  rw [p6_keep_arg7, p5_keep_arg7, p4_keep_arg7]

/-- The third bias is not written. -/
theorem part2_arg8 (V : Valuation τ sig (Elt Ideal)) : S6 V (Proc.devRef .tc main_arg8) = V (Proc.devRef .tc main_arg8) := by
  show after ops6 (after ops5 (after ops4 V)) (Proc.devRef .tc main_arg8) = _
  rw [p6_keep_arg8, p5_keep_arg8, p4_keep_arg8]

end Cert.ReferenceIdeal.RefValue

end
-- ==== Proof.ReferencePart3.lean ====
/-
  The last part of the reference program: from the second layer's result to the network's result.

  Starting from contents that hold the second layer's result h (a [50000, 128] array), the edge endpoints s and d with
  one self-loop per node, the unit weights w with a one per self-loop, the comparison "degree positive", the inverse
  square root of the degree and a zero, the last 58 operations compute

    * dinv  = the inverse square root of the degree where the comparison holds, zero elsewhere (a called function:
              the selection of the three buffers it is called on);
    * n (e) = dinv (s e) * w (e) * dinv (d e) for every edge e (a negative node number wrapped around once);
    * the scores: every node receives the sum over its incoming edges e of row s (e) of h * W3 times n (e), plus the
      bias row b3;
    * the result: the row-wise log-softmax of the scores (a called function of the scores' buffer).

  `part3_result` states the result buffer's contents after these operations as that term over the starting contents.
-/
import proofs.«101195_j59442347377119_1_alg».proof.Proof.ReferenceOps
import proofs.«101195_j59442347377119_1_alg».proof.Proof.Network
import Idealize.ShloMosaic.Lib.StableHlo.Run

set_option maxRecDepth 65536
set_option maxHeartbeats 4000000

noncomputable section

namespace Cert.ReferenceIdeal.RefValue.P3

open Cert.ReferenceIdeal Cert.ReferenceIdeal.Gen Cert.ReferenceIdeal.ValueP Cert.Stages Idealize.ShloMosaic Idealize.ShloMosaic.TcCoe Idealize.SL.Sem Idealize.ShloMosaic.StableHlo

/-- Reads each remaining operation's result at its own buffer and the other buffers as they were, one at a time, also
    inside the two pieces of a concatenation. -/
macro "finish_reads3" : tactic =>
  `(tactic| repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)))

/-! ### The selection of the inverse square root where the degree is positive, from any contents -/

theorem sel7 (V : Valuation τ sig (Elt Ideal)) : StableHlo.after ops7 V (Proc.devRef .tc main_v112)
    = (select (V (Proc.devRef .tc main_v110) : IVec S50000 1) (V (Proc.devRef .tc main_v111) : FArr S50000) (broadcastInDim S50000 ![] bcast_S_S50000 (id (V (Proc.devRef .tc main_cst_26) : FArr S_))) : FArr S50000) := by after_results_simp; finish_reads3; all_goals rfl
theorem keep7_v100 (V : Valuation τ sig (Elt Ideal)) : StableHlo.after ops7 V (Proc.devRef .tc main_v100) = V (Proc.devRef .tc main_v100) := by after_results_simp; finish_reads3; all_goals rfl
theorem keep7_arg7 (V : Valuation τ sig (Elt Ideal)) : StableHlo.after ops7 V (Proc.devRef .tc main_arg7) = V (Proc.devRef .tc main_arg7) := by after_results_simp; finish_reads3; all_goals rfl
theorem keep7_v102 (V : Valuation τ sig (Elt Ideal)) : StableHlo.after ops7 V (Proc.devRef .tc main_v102) = V (Proc.devRef .tc main_v102) := by after_results_simp; finish_reads3; all_goals rfl
theorem keep7_v103 (V : Valuation τ sig (Elt Ideal)) : StableHlo.after ops7 V (Proc.devRef .tc main_v103) = V (Proc.devRef .tc main_v103) := by after_results_simp; finish_reads3; all_goals rfl
theorem keep7_v105 (V : Valuation τ sig (Elt Ideal)) : StableHlo.after ops7 V (Proc.devRef .tc main_v105) = V (Proc.devRef .tc main_v105) := by after_results_simp; finish_reads3; all_goals rfl
theorem keep7_arg8 (V : Valuation τ sig (Elt Ideal)) : StableHlo.after ops7 V (Proc.devRef .tc main_arg8) = V (Proc.devRef .tc main_arg8) := by after_results_simp; finish_reads3; all_goals rfl

/-! ### The edge normalisation, the message passing and the bias, from any contents -/

theorem scores8 (V : Valuation τ sig (Elt Ideal)) : StableHlo.after ops8 V (Proc.devRef .tc main_v145)
    = (addf (aggregate40 (linear40 (V (Proc.devRef .tc main_v100) : FArr S50000x128) (V (Proc.devRef .tc main_arg7) : FArr S128x40)) (V (Proc.devRef .tc main_v102) : IArr S850000) (V (Proc.devRef .tc main_v103) : IArr S850000) (mulf (mulf (Host.gather gather_S50000_S850000x1_S850000_n_0_n_n_0_1_1 (V (Proc.devRef .tc main_v112) : FArr S50000) (broadcastInDim S850000x1 ![0] bcast_S850000_S850000x1_0 (wrapped (V (Proc.devRef .tc main_v102) : IArr S850000)))) (V (Proc.devRef .tc main_v105) : FArr S850000))
        (Host.gather gather_S50000_S850000x1_S850000_n_0_n_n_0_1_1 (V (Proc.devRef .tc main_v112) : FArr S50000) (broadcastInDim S850000x1 ![0] bcast_S850000_S850000x1_0 (wrapped (V (Proc.devRef .tc main_v103) : IArr S850000)))) : FArr S850000))
        (broadcastInDim S50000x40 ![0, 1] bcast_S1x40_S50000x40_0_1 (biasRow40 (V (Proc.devRef .tc main_arg8) : FArr S40))) : FArr S50000x40) := by after_results_simp; finish_reads3; all_goals rfl

/-! ### The row-wise log-softmax, from any contents

Its fifteen operations in five runs: the row maximum; the same against minus infinity; the scores minus it; the row
sums of the exponentials; the logarithm subtracted. -/

/-- The row maximum from minus infinity. -/
abbrev ops9a {F : FTy → Type} [FloatOps F] : List (HloOp τ sig (Elt F)) :=
  [ TRef.nullary (TRef.of (T := ⟨S_, .f32⟩) main_call4_cst) (constant S_ .f32 0xFF800000#32),
    TRef.binary (TRef.of (T := ⟨S50000x40, .f32⟩) main_v145) (TRef.of (T := ⟨S_, .f32⟩) main_call4_cst) (TRef.of (T := ⟨S50000, .f32⟩) main_call4_v0) (fun x v => Host.reduce FloatOps.maximumf x v reducesTo_S50000x40_S50000_d1 h_S_) ]
/-- The row maximum once more against minus infinity. -/
abbrev ops9a' {F : FTy → Type} [FloatOps F] : List (HloOp τ sig (Elt F)) :=
  [ TRef.nullary (TRef.of (T := ⟨S_, .f32⟩) main_call4_cst_0) (constant S_ .f32 0xFF800000#32),
    TRef.unary (TRef.of (T := ⟨S_, .f32⟩) main_call4_cst_0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_call4_v0) (TRef.of (T := ⟨S50000, .f32⟩) main_call4_v2) maximumf ]
/-- The row maximum as a column, spread along the rows, subtracted from the scores. -/
abbrev ops9b {F : FTy → Type} [FloatOps F] : List (HloOp τ sig (Elt F)) :=
  [ TRef.unary (TRef.of (T := ⟨S50000, .f32⟩) main_call4_v2) (TRef.of (T := ⟨S50000x1, .f32⟩) main_call4_v3) (broadcastInDim S50000x1 ![0] bcast_S50000_S50000x1_0),
    TRef.unary (TRef.of (T := ⟨S50000x1, .f32⟩) main_call4_v3) (TRef.of (T := ⟨S50000x40, .f32⟩) main_call4_v4) (broadcastInDim S50000x40 ![0, 1] bcast_S50000x1_S50000x40_0_1),
    TRef.binary (TRef.of (T := ⟨S50000x40, .f32⟩) main_v145) (TRef.of (T := ⟨S50000x40, .f32⟩) main_call4_v4) (TRef.of (T := ⟨S50000x40, .f32⟩) main_call4_v5) subf ]
/-- The exponentials and their row sums from zero. -/
abbrev ops9c {F : FTy → Type} [FloatOps F] : List (HloOp τ sig (Elt F)) :=
  [ TRef.unary (TRef.of (T := ⟨S50000x40, .f32⟩) main_call4_v5) (TRef.of (T := ⟨S50000x40, .f32⟩) main_call4_v6) Host.exp,
    TRef.nullary (TRef.of (T := ⟨S_, .f32⟩) main_call4_cst_1) (constant S_ .f32 0x00000000#32),
    TRef.binary (TRef.of (T := ⟨S50000x40, .f32⟩) main_call4_v6) (TRef.of (T := ⟨S_, .f32⟩) main_call4_cst_1) (TRef.of (T := ⟨S50000, .f32⟩) main_call4_v7) (fun x v => Host.reduceAdd x v reducesTo_S50000x40_S50000_d1 h_S_) ]
/-- The row sums as a column, their logarithm, spread along the rows, subtracted from the shifted scores. -/
abbrev ops9d {F : FTy → Type} [FloatOps F] : List (HloOp τ sig (Elt F)) :=
  [ TRef.unary (TRef.of (T := ⟨S50000, .f32⟩) main_call4_v7) (TRef.of (T := ⟨S50000x1, .f32⟩) main_call4_v8) (broadcastInDim S50000x1 ![0] bcast_S50000_S50000x1_0),
    TRef.unary (TRef.of (T := ⟨S50000x1, .f32⟩) main_call4_v8) (TRef.of (T := ⟨S50000x1, .f32⟩) main_call4_v9) Host.log,
    TRef.unary (TRef.of (T := ⟨S50000x1, .f32⟩) main_call4_v9) (TRef.of (T := ⟨S50000x40, .f32⟩) main_call4_v10) (broadcastInDim S50000x40 ![0, 1] bcast_S50000x1_S50000x40_0_1),
    TRef.binary (TRef.of (T := ⟨S50000x40, .f32⟩) main_call4_v5) (TRef.of (T := ⟨S50000x40, .f32⟩) main_call4_v10) (TRef.of (T := ⟨S50000x40, .f32⟩) main_v146) subf ]

/-- The fifteen operations are the five runs one after the other. -/
theorem ops9_cut (V : Valuation τ sig (Elt Ideal)) : StableHlo.after ops9 V
    = StableHlo.after ops9d (StableHlo.after ops9c (StableHlo.after ops9b (StableHlo.after ops9a' (StableHlo.after ops9a V)))) := rfl

/-- Carrying a value to a buffer's own type and back changes nothing (the two types are the same). -/
theorem toBuf_call4_v0 (v : (⟨S50000, .f32⟩ : BufTy).Contents (Elt Ideal)) : (TRef.of (T := ⟨S50000, .f32⟩) main_call4_v0 : TRef sig ⟨S50000, .f32⟩).toBuf v = v := rfl
theorem ofBuf_call4_v0 (v : (⟨S50000, .f32⟩ : BufTy).Contents (Elt Ideal)) : (TRef.of (T := ⟨S50000, .f32⟩) main_call4_v0 : TRef sig ⟨S50000, .f32⟩).ofBuf v = v := rfl
theorem toBuf_v145 (v : (⟨S50000x40, .f32⟩ : BufTy).Contents (Elt Ideal)) : (TRef.of (T := ⟨S50000x40, .f32⟩) main_v145 : TRef sig ⟨S50000x40, .f32⟩).toBuf v = v := rfl
theorem ofBuf_v145 (v : (⟨S50000x40, .f32⟩ : BufTy).Contents (Elt Ideal)) : (TRef.of (T := ⟨S50000x40, .f32⟩) main_v145 : TRef sig ⟨S50000x40, .f32⟩).ofBuf v = v := rfl
theorem toBuf_call4_cst (v : (⟨S_, .f32⟩ : BufTy).Contents (Elt Ideal)) : (TRef.of (T := ⟨S_, .f32⟩) main_call4_cst : TRef sig ⟨S_, .f32⟩).toBuf v = v := rfl
theorem ofBuf_call4_cst (v : (⟨S_, .f32⟩ : BufTy).Contents (Elt Ideal)) : (TRef.of (T := ⟨S_, .f32⟩) main_call4_cst : TRef sig ⟨S_, .f32⟩).ofBuf v = v := rfl

theorem rowMax9 (V : Valuation τ sig (Elt Ideal)) : StableHlo.after ops9a V (Proc.devRef .tc main_call4_v0)
    = (Host.reduce FloatOps.maximumf (V (Proc.devRef .tc main_v145) : FArr S50000x40) (constant (F := Ideal) S_ .f32 0xFF800000#32) reducesTo_S50000x40_S50000_d1 h_S_ : FArr S50000) := by
  after_results_simp
  rw [toBuf_call4_v0, ofBuf_v145, toBuf_call4_cst, ofBuf_call4_cst]
theorem keep9a_v145 (V : Valuation τ sig (Elt Ideal)) : StableHlo.after ops9a V (Proc.devRef .tc main_v145) = V (Proc.devRef .tc main_v145) := by after_results_simp; finish_reads3; all_goals rfl

theorem rowMax9' (V : Valuation τ sig (Elt Ideal)) : StableHlo.after ops9a' V (Proc.devRef .tc main_call4_v2)
    = (maximumf (broadcastInDim S50000 ![] bcast_S_S50000 (constant (F := Ideal) S_ .f32 0xFF800000#32)) (V (Proc.devRef .tc main_call4_v0) : FArr S50000) : FArr S50000) := by after_results_simp; finish_reads3; all_goals rfl
theorem keep9a'_v145 (V : Valuation τ sig (Elt Ideal)) : StableHlo.after ops9a' V (Proc.devRef .tc main_v145) = V (Proc.devRef .tc main_v145) := by after_results_simp; finish_reads3; all_goals rfl

theorem shifted9 (V : Valuation τ sig (Elt Ideal)) : StableHlo.after ops9b V (Proc.devRef .tc main_call4_v5)
    = (subf (V (Proc.devRef .tc main_v145) : FArr S50000x40) (broadcastInDim S50000x40 ![0, 1] bcast_S50000x1_S50000x40_0_1 (broadcastInDim S50000x1 ![0] bcast_S50000_S50000x1_0 (V (Proc.devRef .tc main_call4_v2) : FArr S50000))) : FArr S50000x40) := by after_results_simp; finish_reads3; all_goals rfl

theorem rowSum9 (V : Valuation τ sig (Elt Ideal)) : StableHlo.after ops9c V (Proc.devRef .tc main_call4_v7)
    = (Host.reduceAdd (Host.exp (V (Proc.devRef .tc main_call4_v5) : FArr S50000x40)) (constant (F := Ideal) S_ .f32 0x00000000#32) reducesTo_S50000x40_S50000_d1 h_S_ : FArr S50000) := by after_results_simp; finish_reads3; all_goals rfl
theorem keep9c_call4_v5 (V : Valuation τ sig (Elt Ideal)) : StableHlo.after ops9c V (Proc.devRef .tc main_call4_v5) = V (Proc.devRef .tc main_call4_v5) := by after_results_simp; finish_reads3; all_goals rfl

theorem result9 (V : Valuation τ sig (Elt Ideal)) : StableHlo.after ops9d V (Proc.devRef .tc main_v146)
    = (subf (V (Proc.devRef .tc main_call4_v5) : FArr S50000x40) (broadcastInDim S50000x40 ![0, 1] bcast_S50000x1_S50000x40_0_1 (Host.log (broadcastInDim S50000x1 ![0] bcast_S50000_S50000x1_0 (V (Proc.devRef .tc main_call4_v7) : FArr S50000)))) : FArr S50000x40) := by after_results_simp; finish_reads3; all_goals rfl

theorem logSoftmax9 (V : Valuation τ sig (Elt Ideal)) : StableHlo.after ops9 V (Proc.devRef .tc main_v146) = logSoftmaxRows (V (Proc.devRef .tc main_v145) : FArr S50000x40) := by
  rw [ops9_cut, result9, keep9c_call4_v5, rowSum9, shifted9, keep9a'_v145, keep9a_v145, rowMax9', rowMax9]
  rfl

end Cert.ReferenceIdeal.RefValue.P3

namespace Cert.ReferenceIdeal.RefValue

open Cert.ReferenceIdeal Cert.ReferenceIdeal.Gen Cert.ReferenceIdeal.ValueP Cert.Stages Idealize.ShloMosaic Idealize.ShloMosaic.TcCoe Idealize.SL.Sem Idealize.ShloMosaic.StableHlo
open Cert.ReferenceIdeal.RefValue.P3

/-- The contents after the last three pieces of the reference program, from the contents `V` before them. -/
abbrev S9 (V : Valuation τ sig (Elt Ideal)) : Valuation τ sig (Elt Ideal) :=
  StableHlo.after ops9 (StableHlo.after ops8 (StableHlo.after ops7 V))

/-! ### The result -/

/-- The result buffer after the last three pieces: the log-softmax of the message passing of `h * W3` with the
    normalisation built from the selected inverse square roots, plus the bias row. -/
theorem part3_result (V : Valuation τ sig (Elt Ideal)) : S9 V (Proc.devRef .tc main_v146)
    = biasLogSoftmax (aggregate40 (linear40 (V (Proc.devRef .tc main_v100)) (V (Proc.devRef .tc main_arg7))) (V (Proc.devRef .tc main_v102)) (V (Proc.devRef .tc main_v103))
        (mulf (mulf (Host.gather gather_S50000_S850000x1_S850000_n_0_n_n_0_1_1 (select (V (Proc.devRef .tc main_v110)) (V (Proc.devRef .tc main_v111)) (broadcastInDim S50000 ![] bcast_S_S50000 (id (V (Proc.devRef .tc main_cst_26))))) (broadcastInDim S850000x1 ![0] bcast_S850000_S850000x1_0 (wrapped (V (Proc.devRef .tc main_v102))))) (V (Proc.devRef .tc main_v105)))
          (Host.gather gather_S50000_S850000x1_S850000_n_0_n_n_0_1_1 (select (V (Proc.devRef .tc main_v110)) (V (Proc.devRef .tc main_v111)) (broadcastInDim S50000 ![] bcast_S_S50000 (id (V (Proc.devRef .tc main_cst_26))))) (broadcastInDim S850000x1 ![0] bcast_S850000_S850000x1_0 (wrapped (V (Proc.devRef .tc main_v103)))))))
      (biasRow40 (V (Proc.devRef .tc main_arg8))) := by
  show StableHlo.after ops9 (StableHlo.after ops8 (StableHlo.after ops7 V)) (Proc.devRef .tc main_v146) = _
  rw [logSoftmax9, scores8, sel7, keep7_v100, keep7_arg7, keep7_v102, keep7_v103, keep7_v105, keep7_arg8]
  rfl

end Cert.ReferenceIdeal.RefValue

end
-- ==== Proof.ReferenceTrace.lean ====
/-
  The reference program's result, read off the fold of its 205 host operations.

  The list is ten pieces: five plain stretches and five called functions (three selections "1/√deg where the degree is
  positive, else zero", the maximum with zero, the row-wise log-softmax). Read piece by piece, from any contents:
  pieces 0–3 leave the first layer `hidden1` (and keep the edge endpoints, the unit weights and the arguments);
  pieces 4–6 leave the second layer joined to the first, the edge lists with their self-loops for the third time,
  and the unit-weight degree's comparison and inverse square root; pieces 7–9 leave the result. Substituting each
  into the next, the result buffer holds `Cert.Stages.network` of the nine arguments: the reference recomputes for its
  third layer the unit-weight normalisation of its first, and the two are the same term.
-/
import proofs.«101195_j59442347377119_1_alg».proof.Proof.ReferenceRun
import proofs.«101195_j59442347377119_1_alg».proof.Proof.ReferencePart1
import proofs.«101195_j59442347377119_1_alg».proof.Proof.ReferencePart2
import proofs.«101195_j59442347377119_1_alg».proof.Proof.ReferencePart3
import Idealize.ShloMosaic.Lib.Pipeline.Frame

set_option maxRecDepth 65536
set_option maxHeartbeats 4000000

noncomputable section

namespace Cert.ReferenceIdeal.RefValue

open Cert.ReferenceIdeal Cert.ReferenceIdeal.Gen Cert.ReferenceIdeal.ValueP Cert.Stages
open Idealize.ShloMosaic Idealize.ShloMosaic.TcCoe Idealize.SL.Sem Idealize.ShloMosaic.StableHlo

/-- The whole list run from contents `V` is the ten pieces run one after the other. -/
theorem fold_pieces (V : Valuation τ sig (Elt Ideal)) :
    after (ops (F := Ideal)) V = S9 (S6 (S3 V)) := by
  rw [ops_split]
  simp only [StableHlo.after_append]

/-- From any contents, the fold leaves in the result buffer the network function of the contents of the nine arguments. -/
theorem fold_result (V : Valuation τ sig (Elt Ideal)) :
    after (ops (F := Ideal)) V (Proc.devRef .tc main_v146)
      = network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [fold_pieces, part3_result, part2_hidden, part2_src, part2_dst, part2_ww, part2_pos, part2_rsqrt, part2_zero,
    part2_arg7, part2_arg8, part1_hidden, part1_src, part1_dst, part1_ones, part1_arg2, part1_arg5, part1_arg6,
    part1_arg7, part1_arg8]
  rfl

/-- The reference's run with its result read: every weakly fair execution terminates with the result buffer at the network
    function of the launch contents of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v146)
          = network (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (fold_result (launchContents m c)), (h c).2⟩)
    (Cert.ReferenceIdeal.ValueP.run (F := Ideal) m ρ)

end Cert.ReferenceIdeal.RefValue

end
-- ==== Proof.lean ====
/-
  The certificate of a three-layer graph network kernel against its jnp reference, over the extended reals.

  Both programs compute, from node features x, an edge list, edge weights and three weight / bias pairs,
      h1  = max(agg₁(x·W1) + b1, 0),   hc = 0.1·h1 + 1·(agg₂(h1·W2) + b2),   out = logsoftmax(agg₁(hc·W3) + b3),
  where agg sends every node the normalised sum of its in-neighbours' rows (self-loops added; agg₁ with unit edge
  weights, agg₂ with the given ones). The kernel runs the three products, the bias + maximum, the weighted combination
  and the bias + log-softmax as regions tiled over ten blocks of 5000 node rows, and leaves the gather / scatter-add to the
  host; the reference is host operations throughout and recomputes the unit-weight normalisation for the third layer.

  At the ideal values a change of float format is the identity and every operation is exact, so the two programs apply the
  same operations in the same order: the equalities used are that a row block of a product, of a row-wise maximum or sum,
  or of a pointwise expression with a broadcast row is the same expression of the row block (the six region lemmas), that
  the maximum with minus infinity changes nothing, and that the bias row reshaped to [1, n] is the bias broadcast along a
  new leading axis. No finiteness of the inputs is needed: the precondition is never opened.

  * the three frames: the generated frames of the kernel as printed and idealized; the reference's run with its result dropped;
  * the idealization rewrote no operation: nothing to preserve;
  * the two idealized programs end with equal results: both result buffers hold `Cert.Stages.network` of the arguments
    (`Cert.KernelIdeal.Trace.result` over the run through the regions; `Cert.ReferenceIdeal.RefValue.run`, the reference's fold
    read piece by piece), and the arguments agree.
-/
import proofs.«101195_j59442347377119_1_alg».proof.Defs
import proofs.«101195_j59442347377119_1_alg».proof.Proof.Gen.Kernel
import proofs.«101195_j59442347377119_1_alg».proof.Proof.Gen.Kernel.Skeleton
import proofs.«101195_j59442347377119_1_alg».proof.Proof.Gen.Kernel.Launch
import proofs.«101195_j59442347377119_1_alg».proof.Proof.Gen.Kernel.Points
import proofs.«101195_j59442347377119_1_alg».proof.Proof.Gen.Kernel.Frame
import proofs.«101195_j59442347377119_1_alg».proof.Proof.Gen.KernelIdeal
import proofs.«101195_j59442347377119_1_alg».proof.Proof.Gen.KernelIdeal.Skeleton
import proofs.«101195_j59442347377119_1_alg».proof.Proof.Gen.KernelIdeal.Launch
import proofs.«101195_j59442347377119_1_alg».proof.Proof.Gen.KernelIdeal.Points
import proofs.«101195_j59442347377119_1_alg».proof.Proof.Gen.KernelIdeal.Frame
import proofs.«101195_j59442347377119_1_alg».proof.Proof.Gen.ReferenceIdeal
import proofs.«101195_j59442347377119_1_alg».proof.Proof.Gen.Pre_finite_inputs
import proofs.«101195_j59442347377119_1_alg».proof.Proof.KernelRun
import proofs.«101195_j59442347377119_1_alg».proof.Proof.KernelTrace
import proofs.«101195_j59442347377119_1_alg».proof.Proof.ReferenceRun
import proofs.«101195_j59442347377119_1_alg».proof.Proof.ReferenceTrace
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments unchanged: its run with the result dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- From memories that agree on the nine arguments the two idealized programs end with the same result array: the network
    function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Stages.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Trace.result m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.RefValue.run m' ρ')
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
